-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67_0)) (v1 : (c : Dev Cert.KernelIdeal.nD) → Buf (Elt Ideal) ((c.tc : Thread Cert.KernelIdeal.nD Cert.KernelIdeal.τ).loc Cert.KernelIdeal.main_v67_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_0) = v0 c
          ∧ r.2.mem ((c.tc : Thread Cert.KernelIdeal.nD Cert.KernelIdeal.τ).loc Cert.KernelIdeal.main_v67_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S64 .f32) (main_arg5 : FVec F S64x16 .f32) (main_arg6 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg5
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : FVec F S128x64 .f32) (main_arg2 : FVec F S64 .f32) (main_arg3 : FVec F S64x64 .f32) (main_arg4 : FVec F S64 .f32) (main_arg5 : FVec F S64x16 .f32) (main_arg6 : FVec F S16 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S100000x1 : Shape := ⟨2, ![100000, 1]⟩
abbrev S1x64 : Shape := ⟨2, ![1, 64]⟩
abbrev S10000x1 : Shape := ⟨2, ![10000, 1]⟩
abbrev S1x16 : Shape := ⟨2, ![1, 16]⟩
abbrev S100000x16 : Shape := ⟨2, ![100000, 16]⟩
abbrev S10000x16 : Shape := ⟨2, ![10000, 16]⟩
abbrev S10000 : Shape := ⟨1, ![10000]⟩

abbrev nBuf : Space → Nat
  | .hbm => 92
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000, .f32⟩
  | .hbm, ⟨48, _⟩ => ⟨S1600000, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S1600000x1, .f32⟩
  | .hbm, ⟨60, _⟩ => ⟨S1600000x64, .f32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S100000x1, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x64, .f32⟩
  | .hbm, ⟨79, _⟩ => ⟨S1600000x1, .f32⟩
  | .hbm, ⟨80, _⟩ => ⟨S1600000x64, .f32⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S100000x1, .f32⟩
  | .hbm, ⟨87, _⟩ => ⟨S1x64, .f32⟩
  | .hbm, ⟨88, _⟩ => ⟨S100000x64, .f32⟩
  | .hbm, ⟨89, _⟩ => ⟨S1x16, .f32⟩
  | .hbm, ⟨90, _⟩ => ⟨S100000x16, .f32⟩
  | .hbm, ⟨91, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x16, .f32⟩
  | .local _ .vmem, ⟨31, _⟩ => ⟨S1x16, .f32⟩
  | .local _ .vmem, ⟨32, _⟩ => ⟨S10000x16, .f32⟩
  | .local _ .vmem, ⟨33, _⟩ => ⟨S10000x16, .f32⟩
  | .local _ .vmem, ⟨34, _⟩ => ⟨S10000x16, .f32⟩
  | .local _ .vmem, ⟨35, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67_0 : Ref sig .tc := ⟨.hbm, 90, rfl⟩
abbrev main_v67_1 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc4_sem4_0 : DmaSem sig := 34
abbrev cc4_sem4_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S10000x16 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S10000x1_S10000x64 : S10000x1.Broadcasts S10000x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  reduces_S10000x16_S10000 : S10000x16.Reduces [1] S10000
  shapeCasts_S10000_S10000x1 : S10000.ShapeCasts S10000x1
  broadcasts_S10000x1_S10000x16 : S10000x1.Broadcasts S10000x16
  inb_S10000x16_S10000x16_0_0 : ∀ a, (![0, 0] : Fin 2 → Nat) a + S10000x16.size a ≤ S10000x16.size a
  h_S10000x16 : 0 < S10000x16.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x16.size a ≤ S64x16.size a
  hwx4_1 : ∀ i : grid4.Coords, EltTy.bits .f32 = 32 ∨ (Rect.block (s := S64x16) S64x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x16.size a ≤ S100000x16.size a
  hwx4_3 : ∀ i : grid4.Coords, EltTy.bits .f32 = 32 ∨ (Rect.block (s := S100000x16) S10000x16.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x16.size a ≤ S100000x16.size a
  hwx4_4 : ∀ i : grid4.Coords, EltTy.bits .f32 = 32 ∨ (Rect.block (s := S100000x16) S10000x16.size (cc4_transform_4 i) (hinb4_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v65) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S64x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67_0) S10000x16.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v67_1) S10000x16.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S2x1600000 : Shape := ⟨2, ![2, 1600000]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x16 : Shape := ⟨2, ![100000, 16]⟩
abbrev S1x16 : Shape := ⟨2, ![1, 16]⟩

abbrev nBuf : Space → Nat
  | .hbm => 158
  | .vmem => 0
  | .smem => 0
  | _ => 0

abbrev hbmTy0_0 (i : Nat) : BufTy := match i % 128 with
  | 0 => ⟨S100000x128, .f32⟩
  | 1 => ⟨S128x64, .f32⟩
  | 2 => ⟨S64, .f32⟩
  | 3 => ⟨S64x64, .f32⟩
  | 4 => ⟨S64, .f32⟩
  | 5 => ⟨S64x16, .f32⟩
  | 6 => ⟨S16, .f32⟩
  | 7 => ⟨S2x1600000, .i32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S100000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S_, .f32⟩
  | 24 => ⟨S1600000, .f32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x64, .f32⟩
  | 58 => ⟨S1600000x1, .f32⟩
  | 59 => ⟨S1600000x64, .f32⟩
  | 60 => ⟨S1600000x64, .f32⟩
  | 61 => ⟨S_, .f32⟩
  | 62 => ⟨S100000x64, .f32⟩
  | 63 => ⟨S1600000x1, .i32⟩
  | 64 => ⟨S100000x64, .f32⟩
  | 65 => ⟨S100000, .f32⟩
  | 66 => ⟨S100000x1, .f32⟩
  | 67 => ⟨S100000x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S_, .f32⟩
  | 78 => ⟨S100000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S_, .f32⟩
  | 88 => ⟨S1600000, .f32⟩
  | 89 => ⟨S100000, .f32⟩
  | 90 => ⟨S_, .f32⟩
  | 91 => ⟨S100000, .f32⟩
  | 92 => ⟨S100000, .f32⟩
  | 93 => ⟨S100000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x64, .f32⟩
  | 122 => ⟨S1600000x1, .f32⟩
  | 123 => ⟨S1600000x64, .f32⟩
  | 124 => ⟨S1600000x64, .f32⟩
  | 125 => ⟨S_, .f32⟩
  | 126 => ⟨S100000x64, .f32⟩
  | 127 => ⟨S1600000x1, .i32⟩
  | _ => ⟨S100000x128, .f32⟩

abbrev hbmTy0_1 (i : Nat) : BufTy := match i % 128 with
  | 0 => ⟨S100000x64, .f32⟩
  | 1 => ⟨S100000, .f32⟩
  | 2 => ⟨S100000x1, .f32⟩
  | 3 => ⟨S100000x64, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S100000x16, .f32⟩
  | 13 => ⟨S1x16, .f32⟩
  | 14 => ⟨S100000x16, .f32⟩
  | 15 => ⟨S100000x16, .f32⟩
  | 16 => ⟨S_, .f32⟩
  | 17 => ⟨S100000, .f32⟩
  | 18 => ⟨S_, .f32⟩
  | 19 => ⟨S100000, .f32⟩
  | 20 => ⟨S100000, .f32⟩
  | 21 => ⟨S100000x1, .f32⟩
  | 22 => ⟨S100000x16, .f32⟩
  | 23 => ⟨S100000x16, .f32⟩
  | 24 => ⟨S100000x16, .f32⟩
  | 25 => ⟨S_, .f32⟩
  | 26 => ⟨S100000, .f32⟩
  | 27 => ⟨S100000x1, .f32⟩
  | 28 => ⟨S100000x16, .f32⟩
  | 29 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call0_cst : Ref sig .tc := ⟨.hbm, 73, rfl⟩
abbrev main_call0_v0 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_c_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_c_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_19 : Ref sig .tc := ⟨.hbm, 113, rfl⟩
abbrev main_v82 : Ref sig .tc := ⟨.hbm, 114, rfl⟩
abbrev main_v83 : Ref sig .tc := ⟨.hbm, 115, rfl⟩
abbrev main_c_20 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_21 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_call1_cst : Ref sig .tc := ⟨.hbm, 137, rfl⟩
abbrev main_call1_v0 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_22 : Ref sig .tc := ⟨.hbm, 144, rfl⟩
abbrev main_v108 : Ref sig .tc := ⟨.hbm, 145, rfl⟩
abbrev main_cst_23 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_24 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000x1_S100000x16_0_1 : S100000x1.BroadcastsInDim S100000x16 (![0, 1] : Fin 2 → Fin S100000x16.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KernelRun.lean ====
/-
  The idealized kernel's run with its two result arrays named.

  The program is five tiled regions among stretches of host operations. Its frame is proved from a chain of
  boundary contents: the contents of every buffer after each stretch and after each region, folded from the launch
  memory. The same chain, read at the two result buffers instead of only at the arguments, says what the results
  hold when the program ends: the last boundary's contents at those two buffers.
-/
import proofs.«125561_j64424509440202_1_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result buffers at the last
    boundary's contents and the arguments as launched. -/
theorem run_named : θ_run defs (onTc (τ := τ) (main (F := F))) ⟨m, fun _ => 0, ρ⟩ (fun r => ∀ c : Dev nD,
      r.2.mem ((c.tc : Thread nD τ).loc main_v67_0) = W9 m ρ c (Proc.devRef .tc main_v67_0)
      ∧ r.2.mem ((c.tc : Thread nD τ).loc main_v67_1) = W9 m ρ c (Proc.devRef .tc main_v67_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [Gen.main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v67_0 (by decide)),
       h c _ (mem_uc main_v67_1 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.Bridge

end
-- ==== Proof.LibDense.lean ====
/-
  A dense layer read entry by entry, on the extended reals.

  The product of an M×K matrix X by a K×N matrix W has, at entry (r, c), the sum over k of X(r,k)·W(k,c). A tiled
  kernel computes it block of rows by block of rows, each block a product accumulated into a zero splat; a host
  program computes it with one product and no accumulator. Both are this one function, and since each output entry is
  a sum over the contracted coordinate only, a block of rows of the product is the product of that block of rows.
  A bias vector b added along the rows followed by max(·, 0) is read the same way: entry (r, k) is
  max(A(r,k) + b(k), 0). Nothing here cancels or distributes, so every statement holds at the infinities too.
  Stated for any extents.
-/
import Idealize.ShloMosaic.Lib.StackMember
import Idealize.ShloMosaic.Lib.KernelVsHost
import Idealize.ShloMosaic.Lib.ValueLayout
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx
open scoped BigOperators

variable {M K N : ℕ}

/-- The float zero word read at the ideal values. -/
abbrev zeroWord : EReal := Ideal.ofBits .f32 0x00000000#32

/-- The product of an M×K matrix by a K×N matrix: entry (r, c) is the sum over k of X(r,k)·W(k,c). -/
def matProd (X : (⟨2, ![M, K]⟩ : Shape).Idx → EReal) (W : (⟨2, ![K, N]⟩ : Shape).Idx → EReal) :
    (⟨2, ![M, N]⟩ : Shape).Idx → EReal :=
  fun i => ∑ k : Fin K, X (ix2 (i 0) k) * W (ix2 k (i 1))

theorem matProd_apply (X : (⟨2, ![M, K]⟩ : Shape).Idx → EReal) (W : (⟨2, ![K, N]⟩ : Shape).Idx → EReal)
    (r : Fin M) (c : Fin N) : matProd X W (ix2 r c) = ∑ k : Fin K, X (ix2 r k) * W (ix2 k c) := rfl

/-- A bias vector added along the rows of an M×K matrix, then the positive part: entry (r, k) is max(A(r,k) + b(k), 0). -/
def biasRelu (A : (⟨2, ![M, K]⟩ : Shape).Idx → EReal) (b : (⟨1, ![K]⟩ : Shape).Idx → EReal) :
    (⟨2, ![M, K]⟩ : Shape).Idx → EReal :=
  fun i => max (A i + b (ix1 (i 1))) zeroWord

theorem biasRelu_apply (A : (⟨2, ![M, K]⟩ : Shape).Idx → EReal) (b : (⟨1, ![K]⟩ : Shape).Idx → EReal)
    (r : Fin M) (k : Fin K) : biasRelu A b (ix2 r k) = max (A (ix2 r k) + b (ix1 k)) zeroWord := rfl

/-- The host's product of two matrices, with the plain contraction (rows of the left against columns of the right), is
    `matProd`. -/
theorem dotGeneral_eq_matProd (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = matProd X W := by
  subst hd
  funext i
  obtain ⟨r, c, rfl⟩ : ∃ (r : Fin M) (c : Fin N), i = ix2 r c := ⟨i 0, i 1, eq_ix2 i⟩
  rw [StackMember.dotGeneral_plain_apply, matProd_apply]

/-- A kernel's product accumulated into the zero splat, with the plain contraction, is `matProd`: the accumulator
    contributes 0 + s = s. -/
theorem matmul_zero_eq_matProd (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    matmul d none X W (constant ⟨2, ![M, N]⟩ .f32 0x00000000#32) = matProd X W := by
  rw [matmul_zero_eq_dotGeneral]
  exact dotGeneral_eq_matProd d hd X W

/-- The kernel's spelling of the bias step on a block — the bias held as a one-row matrix and broadcast down the rows,
    added, and compared with a zero splat — is `biasRelu` of the row read as a vector. -/
theorem blockBiasRelu_eq (A : FVec Ideal ⟨2, ![M, K]⟩ .f32) (B : FVec Ideal ⟨2, ![1, K]⟩ .f32)
    (hb : (⟨2, ![1, K]⟩ : Shape).Broadcasts ⟨2, ![M, K]⟩) :
    maximumf (addf A (broadcastTo ⟨2, ![M, K]⟩ B hb)) (broadcast ⟨2, ![M, K]⟩ (Scalar.ofBits (F := Ideal) .f32 0x00000000#32))
      = biasRelu A (fun j => B (ix2 (0 : Fin 1) (j 0))) := by
  funext i
  obtain ⟨r, k, rfl⟩ : ∃ (r : Fin M) (k : Fin K), i = ix2 r k := ⟨i 0, i 1, eq_ix2 i⟩
  rw [maximumf_apply, addf_apply, broadcastTo_1b_ab_apply, biasRelu_apply]
  rfl

end Cert.Dense

end
-- ==== Proof.FirstProduct.lean ====
/-
  The first region: the node features times the first layer's weights.

  The region walks ten blocks of 10000 rows. At each block the body multiplies the block of rows by the whole weight
  matrix into a zero accumulator and writes the block of the product back. Entry (r, c) of a product depends on row r
  of the left factor only, so block t of rows of the whole product is the product of block t of rows; the ten blocks
  cover all 100000 rows, so the array the region leaves is the whole product of the two arrays it found at entry.
  (Changes of float format are the identity on the extended reals.)
-/
import proofs.«125561_j64424509440202_1_alg».proof.Proof.Gen.KernelIdeal.Frame
import proofs.«125561_j64424509440202_1_alg».proof.Proof.LibDense
import Idealize.ShloMosaic.Lib.Pipeline.Value
import Idealize.ShloMosaic.Lib.ValueIdx
import Idealize.ShloMosaic.Lib.KernelVsHost
import Idealize.ShloMosaic.Lib.StackMember

set_option maxRecDepth 16384

noncomputable section

namespace Cert.KernelIdeal.FirstProduct

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The two arrays the region finds at entry: the rows to multiply and the weight matrix. -/
abbrev inX (c : Dev nD) : S100000x128.Idx → EReal := V c (Pipeline.arrRef spec0 0)
abbrev inW (c : Dev nD) : S128x64.Idx → EReal := V c (Pipeline.arrRef spec0 1)

theorem hz : (![0, 0] : Fin 2 → Nat) = fun _ => 0 := funext fun a => by fin_cases a <;> rfl

/-- The body's value on a block of rows: the product of the block by the weight matrix. -/
theorem pay_eq (x0 : Vec Ideal S10000x128 .f32) (x1 : Vec Ideal S128x64 .f32) :
    k0_pay1 (F := Ideal) x0 x1 = Cert.Dense.matProd (M := 10000) (K := 128) (N := 64) x0 x1 := by
  funext i
  obtain ⟨r, q, rfl⟩ : ∃ (r : Fin 10000) (q : Fin 64), i = ix2 r q := ⟨i 0, i 1, eq_ix2 i⟩
  unfold k0_pay1
  have hd : dot_S10000x128_S128x64_S10000x64_1_0_0_1_n_n = DotDims.plain 10000 128 64 := rfl
  rw [matmul_zero_eq_dotGeneral, hd, StackMember.dotGeneral_plain_apply, Cert.Dense.matProd_apply]
  rfl

/-- Where each window's block sits at grid point t: the row blocks move with t, the weight matrix stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of rows of the whole product. -/
theorem flushed_eq (c : Dev nD) (t : Fin cfg0.N) :
    (dat0 V c).flushed 2 t = ((cfg0.win 2).blk t).view.read (Elt Ideal)
      (Cert.Dense.matProd (M := 100000) (K := 128) (N := 64) (inX V c) (inW V c)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  rw [pay_eq]
  obtain ⟨e0, e1, e2, e3, e4, e5⟩ := idx_facts t
  have hN : grid0.N = 10 := N_0
  have ht : t.val < 10 := (show t.val < grid0.N from t.isLt).trans_eq hN
  funext j
  obtain ⟨p, q, rfl⟩ : ∃ (p : Fin 10000) (q : Fin 64), j = ix2 p q := ⟨j 0, j 1, eq_ix2 j⟩
  have hp : p.val < 10000 := p.isLt
  have hr : t.val * 10000 + p.val < 100000 := by omega
  have hemb : ((cfg0.win 2).blk t).view.emb (ix2 p q) = ix2 (⟨t.val * 10000 + p.val, hr⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  show Cert.Dense.matProd (M := 10000) (K := 128) (N := 64) (iblk0 V c 0 t) (iblk0 V c 1 t) (ix2 p q)
    = Cert.Dense.matProd (M := 100000) (K := 128) (N := 64) (inX V c) (inW V c)
        (((cfg0.win 2).blk t).view.emb (ix2 p q))
  rw [hemb, Cert.Dense.matProd_apply, Cert.Dense.matProd_apply]
  refine Finset.sum_congr rfl fun kk _ => ?_
  have h0 : ((cfg0.win 0).blk t).view.emb (ix2 p kk) = ix2 (⟨t.val * 10000 + p.val, hr⟩ : Fin 100000) kk := by
    funext a; apply Fin.ext
    match a with
    | ⟨0, _⟩ => show win0_0.index t (0 : Fin 2) * 10000 + 1 * p.val = t.val * 10000 + p.val; omega
    | ⟨1, _⟩ => show win0_0.index t (1 : Fin 2) * 128 + 1 * kk.val = kk.val; omega
  have h1 : ((cfg0.win 1).blk t).view.emb (ix2 kk q) = ix2 kk q := by
    funext a; apply Fin.ext
    match a with
    | ⟨0, _⟩ => show win0_1.index t (0 : Fin 2) * 128 + 1 * kk.val = kk.val; omega
    | ⟨1, _⟩ => show win0_1.index t (1 : Fin 2) * 64 + 1 * q.val = q.val; omega
  show inX V c (((cfg0.win 0).blk t).view.emb (ix2 p kk)) * inW V c (((cfg0.win 1).blk t).view.emb (ix2 kk q)) = _
  rw [h0, h1]

/-- An index of the array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Every row lies in the block of the point numbered by its quotient by 10000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  have hlt : (i 0).val / 10000 < cfg0.N := by show _ < grid0.N; omega
  obtain ⟨e0, e1, e2, e3, e4, e5⟩ := idx_facts ⟨(i 0).val / 10000, hlt⟩
  refine ⟨⟨(i 0).val / 10000, hlt⟩, flush0_2 _, ?_⟩
  rw [mem_blk]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hlt⟩ (1 : Fin 2) * 64 ≤ (i 1).val ∧ (i 1).val < win0_2.index ⟨(i 0).val / 10000, hlt⟩ (1 : Fin 2) * 64 + 64
    rw [e5]; omega

/-- The array the region leaves: the whole product of the two arrays it found at entry. -/
theorem final (c : Dev nD) :
    (dat0 V c).arrAt 2 cfg0.N
      = Cert.Dense.matProd (M := 100000) (K := 128) (N := 64) (inX V c) (inW V c) :=
  (dat0 V c).arrAt_eq_of_cover 2 _ (fun t _ => flushed_eq V c t) cover

end Cert.KernelIdeal.FirstProduct

end
-- ==== Proof.LibLayout.lean ====
/-
  Layout operations on a trailing unit axis, read at an index written by coordinates.

  A keep-dims value has a trailing axis of extent one.  Adding that axis by a shape cast, dropping it again, and
  broadcasting along it each read ONE element of the operand: the element with the same leading coordinates (and
  coordinate 0 on the unit axis).  Stated for any extents, at ranks 1–4, over indices built by coordinates.
-/
import Idealize.ShloMosaic.Lib.Pipeline.Value
import Idealize.ShloMosaic.Lib.ValueIdx
import Idealize.ShloMosaic.Lib.ValueLayout

namespace Cert.Bridge.Layout

open Idealize.ShloMosaic Idealize.ShloMosaic.ValueIdx

variable {α : Type}

/-- An `[a, b, 1]` array broadcast to `[a, b, n]` reads, at `(i, j, k)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c, 1]` array broadcast to `[a, b, c, n]` reads, at `(i, j, k, l)`, the operand at `(i, j, k, 0)`. -/
theorem broadcastTo_abc1_abcn_apply {a b c n : ℕ} (v : (⟨4, ![a, b, c, 1]⟩ : Shape).Idx → α)
    (h : (⟨4, ![a, b, c, 1]⟩ : Shape).Broadcasts ⟨4, ![a, b, c, n]⟩) (i : Fin a) (j : Fin b) (k : Fin c) (l : Fin n) :
    broadcastTo ⟨4, ![a, b, c, n]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1]` column broadcast to `[a, n]` reads, at `(i, j)`, the operand at `(i, 0)`. -/
theorem broadcastTo_a1_an_apply {a n : ℕ} (v : (⟨2, ![a, 1]⟩ : Shape).Idx → α)
    (h : (⟨2, ![a, 1]⟩ : Shape).Broadcasts ⟨2, ![a, n]⟩) (i : Fin a) (j : Fin n) :
    broadcastTo ⟨2, ![a, n]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Bridge.Layout
-- ==== Proof.LibCombine.lean ====
/-
  A graph-convolution layer's combining step, read entry by entry on the extended reals.

  After the neighbours' rows have been summed into A, a layer adds the node's own row X scaled by a per-node factor
  and a per-feature bias, and keeps the positive part: entry (r, k) is max(A(r,k) + X(r,k)·d(r) + b(k), 0). A tiled
  kernel holds the factor as a column [M, 1] and the bias as a row [1, K] and broadcasts both over the block; read at
  an entry that is the same expression, grouped the same way, so nothing here needs finiteness. Stated for any extents.
-/
import Idealize.ShloMosaic.Lib.ValueLayout
import Idealize.ShloMosaic.Lib.ValueIdx
import Idealize.ShloMosaic.Lib.Pipeline.Value
import Idealize.ShloMosaic.PureOps.Ideal.Laws
import proofs.«125561_j64424509440202_1_alg».proof.Proof.LibLayout

noncomputable section

namespace Cert.Combine

open Idealize.ShloMosaic Idealize.ShloMosaic.ValueIdx Cert.Bridge.Layout

variable {M K : ℕ}

/-- The float zero word read at the ideal values. -/
abbrev zeroWord : EReal := Ideal.ofBits .f32 0x00000000#32

/-- Entry (r, k) of the combined layer: max(A(r,k) + X(r,k)·d(r) + b(k), 0), the factor a vector over the rows and the
    bias a vector over the columns. -/
def combine (A X : (⟨2, ![M, K]⟩ : Shape).Idx → EReal) (d : (⟨1, ![M]⟩ : Shape).Idx → EReal)
    (b : (⟨1, ![K]⟩ : Shape).Idx → EReal) : (⟨2, ![M, K]⟩ : Shape).Idx → EReal :=
  fun i => max (A i + X i * d (ix1 (i 0)) + b (ix1 (i 1))) zeroWord

theorem combine_apply (A X : (⟨2, ![M, K]⟩ : Shape).Idx → EReal) (d : (⟨1, ![M]⟩ : Shape).Idx → EReal)
    (b : (⟨1, ![K]⟩ : Shape).Idx → EReal) (r : Fin M) (k : Fin K) :
    combine A X d b (ix2 r k) = max (A (ix2 r k) + X (ix2 r k) * d (ix1 r) + b (ix1 k)) zeroWord := rfl

/-- The same with the factor held as a column [M, 1] and the bias as a row [1, K]. -/
def combineCR (A X : (⟨2, ![M, K]⟩ : Shape).Idx → EReal) (D : (⟨2, ![M, 1]⟩ : Shape).Idx → EReal)
    (B : (⟨2, ![1, K]⟩ : Shape).Idx → EReal) : (⟨2, ![M, K]⟩ : Shape).Idx → EReal :=
  fun i => max (A i + X i * D (ix2 (i 0) (0 : Fin 1)) + B (ix2 (0 : Fin 1) (i 1))) zeroWord

theorem combineCR_apply (A X : (⟨2, ![M, K]⟩ : Shape).Idx → EReal) (D : (⟨2, ![M, 1]⟩ : Shape).Idx → EReal)
    (B : (⟨2, ![1, K]⟩ : Shape).Idx → EReal) (r : Fin M) (k : Fin K) :
    combineCR A X D B (ix2 r k)
      = max (A (ix2 r k) + X (ix2 r k) * D (ix2 r (0 : Fin 1)) + B (ix2 (0 : Fin 1) k)) zeroWord := rfl

/-- A column cast from a vector and a row cast from a vector give back the vector form. -/
theorem combineCR_casts (A X : (⟨2, ![M, K]⟩ : Shape).Idx → EReal) (d : (⟨1, ![M]⟩ : Shape).Idx → EReal)
    (b : (⟨1, ![K]⟩ : Shape).Idx → EReal) (hd : (⟨1, ![M]⟩ : Shape).ShapeCasts ⟨2, ![M, 1]⟩)
    (hb : (⟨1, ![K]⟩ : Shape).ShapeCasts ⟨2, ![1, K]⟩) :
    combineCR A X (shapeCast ⟨2, ![M, 1]⟩ d hd) (shapeCast ⟨2, ![1, K]⟩ b hb) = combine A X d b := by
  funext i
  obtain ⟨r, k, rfl⟩ : ∃ (r : Fin M) (k : Fin K), i = ix2 r k := ⟨i 0, i 1, eq_ix2 i⟩
  rw [combineCR_apply, combine_apply, shapeCast_a_a1_apply, ValueIdx.shapeCast_a_1a_apply]

/-- The kernel's spelling on a block: the column broadcast along the rows' entries and multiplied in, the row broadcast
    down the rows and added, compared with a zero splat. -/
theorem blockCombine_eq (A X : FVec Ideal ⟨2, ![M, K]⟩ .f32) (D : FVec Ideal ⟨2, ![M, 1]⟩ .f32)
    (B : FVec Ideal ⟨2, ![1, K]⟩ .f32) (hd : (⟨2, ![M, 1]⟩ : Shape).Broadcasts ⟨2, ![M, K]⟩)
    (hb : (⟨2, ![1, K]⟩ : Shape).Broadcasts ⟨2, ![M, K]⟩) :
    maximumf (addf (addf A (mulf X (broadcastTo ⟨2, ![M, K]⟩ D hd))) (broadcastTo ⟨2, ![M, K]⟩ B hb))
        (broadcast ⟨2, ![M, K]⟩ (Scalar.ofBits (F := Ideal) .f32 0x00000000#32))
      = combineCR A X D B := by
  funext i
  obtain ⟨r, k, rfl⟩ : ∃ (r : Fin M) (k : Fin K), i = ix2 r k := ⟨i 0, i 1, eq_ix2 i⟩
  rw [maximumf_apply, addf_apply, addf_apply, mulf_apply, broadcastTo_a1_an_apply, broadcastTo_1b_ab_apply,
    combineCR_apply]
  rfl

end Cert.Combine

end
-- ==== Proof.LibSoftmax.lean ====
/-
  A row softmax read entry by entry on the extended reals.

  For a matrix L with M rows and K columns, the softmax along the rows subtracts each row's maximum, exponentiates,
  and divides by the row's sum of exponentials: entry (r, k) is exp(L(r,k) − max_j L(r,j)) / Σ_j exp(L(r,j) − max_j' L(r,j')).
  The maximum is the fold of max from −∞ over the row and the sum a finite sum over the row. A tiled kernel takes the
  maximum and the sum as lane reductions kept as columns [M, 1] and broadcast back along the rows; read at an entry this is
  the same expression. Nothing is cancelled or distributed, so the statements hold for every extended-real entry.
  Stated for any extents.
-/
import Idealize.ShloMosaic.Lib.ValueLayout
import Idealize.ShloMosaic.Lib.ValueIdx
import Idealize.ShloMosaic.Lib.Pipeline.Value
import Idealize.ShloMosaic.PureOps.Ideal.Laws

noncomputable section

namespace Cert.Softmax

open Idealize.ShloMosaic Idealize.ShloMosaic.ValueIdx
open scoped BigOperators

variable {M K : ℕ}

/-- The float word of −∞ read at the ideal values. -/
abbrev negInfWord : EReal := Ideal.ofBits .f32 0xFF800000#32

/-- The maximum of row r: the fold of max from −∞ over the row's entries. -/
def rowMax (L : (⟨2, ![M, K]⟩ : Shape).Idx → EReal) (r : Fin M) : EReal :=
  (Finset.univ : Finset (Fin K)).fold max negInfWord (fun k => L (ix2 r k))

/-- exp(L(r,k) − max of row r). -/
def expShift (L : (⟨2, ![M, K]⟩ : Shape).Idx → EReal) : (⟨2, ![M, K]⟩ : Shape).Idx → EReal :=
  fun i => Ideal.exp (L i - rowMax L (i 0))

/-- The row softmax: exp(L(r,k) − max) divided by the row's sum of those exponentials. -/
def softmax (L : (⟨2, ![M, K]⟩ : Shape).Idx → EReal) : (⟨2, ![M, K]⟩ : Shape).Idx → EReal :=
  fun i => Ideal.div (expShift L i) (∑ k : Fin K, expShift L (ix2 (i 0) k))

theorem softmax_apply (L : (⟨2, ![M, K]⟩ : Shape).Idx → EReal) (r : Fin M) (k : Fin K) :
    softmax L (ix2 r k) = Ideal.div (Ideal.exp (L (ix2 r k) - rowMax L r)) (∑ j : Fin K, Ideal.exp (L (ix2 r j) - rowMax L r)) := rfl

/-- The reduced index r of a row reduction with column k put back is (r, k). -/
theorem lift_row (h : (⟨2, ![M, K]⟩ : Shape).Reduces [1] (⟨1, ![M]⟩ : Shape)) (r : Fin M)
    (k : Fin ((⟨2, ![M, K]⟩ : Shape).size 1)) : h.lift (ix1 r) k = ix2 r (⟨k.val, k.isLt⟩ : Fin K) := by
  funext c; apply Fin.ext
  fin_cases c <;> rfl

/-- A vector over the rows cast to a column reads, at (r, u), the vector at r. -/
theorem column_apply {α : Type} (x : (⟨1, ![M]⟩ : Shape).Idx → α)
    (h : (⟨1, ![M]⟩ : Shape).ShapeCasts ⟨2, ![M, 1]⟩) (r : Fin M) (u : Fin 1) :
    shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column broadcast along the rows' entries reads, at (r, k), the column at (r, 0). -/
theorem alongRow_apply {α : Type} (v : (⟨2, ![M, 1]⟩ : Shape).Idx → α)
    (h : (⟨2, ![M, 1]⟩ : Shape).Broadcasts ⟨2, ![M, K]⟩) (r : Fin M) (k : Fin K) :
    broadcastTo ⟨2, ![M, K]⟩ v h (ix2 r k) = v (ix2 r (0 : Fin 1)) := by
  refine broadcastTo_apply v h (ix2 r k) (ix2 r (0 : Fin 1)) fun ax => ?_
  match ax with
  | ⟨0, _⟩ =>
    show r.val = if M = 1 then 0 else r.val
    split
    · have := r.isLt; omega
    · rfl
  | ⟨1, _⟩ => rfl

/-- A lane maximum from −∞ over the columns, read at row r, is the row's maximum. -/
theorem laneMax_apply (P : FVec Ideal ⟨2, ![M, K]⟩ .f32) (h : (⟨2, ![M, K]⟩ : Shape).Reduces [1] (⟨1, ![M]⟩ : Shape))
    (hφ : FKind.Formats .f32) (hacc : (0xFF800000#32 : BitVec 32) = FKind.maximumf.neutral .f32 hφ) (r : Fin M) :
    multiReduction .maximumf [1] (⟨1, ![M]⟩ : Shape) P 0xFF800000#32 h hφ hacc (ix1 r) = rowMax P r := by
  refine (Ideal.multiReduction_maximumf_single P 0xFF800000#32 h hφ hacc (ix1 r)).trans ?_
  show (Finset.univ : Finset (Fin K)).fold max (Ideal.ofBits .f32 0xFF800000#32) (P ∘ h.lift (ix1 r)) = _
  unfold rowMax
  congr 1
  funext k
  exact congrArg P (lift_row h r k)

/-- A lane sum from zero over the columns, read at row r, is the sum over the row. -/
theorem laneSum_apply (E : FVec Ideal ⟨2, ![M, K]⟩ .f32) (h : (⟨2, ![M, K]⟩ : Shape).Reduces [1] (⟨1, ![M]⟩ : Shape))
    (hφ : FKind.Formats .f32) (hacc : (0x00000000#32 : BitVec 32) = FKind.add.neutral .f32 hφ) (r : Fin M) :
    multiReduction .add [1] (⟨1, ![M]⟩ : Shape) E 0x00000000#32 h hφ hacc (ix1 r) = ∑ k : Fin K, E (ix2 r k) := by
  refine (Ideal.multiReduction_add_single E 0x00000000#32 h hφ hacc (ix1 r)).trans ?_
  show ∑ k : Fin K, E (h.lift (ix1 r) k) = _
  exact Finset.sum_congr rfl fun k _ => congrArg E (lift_row h r k)

/-- The kernel's spelling on a block: lane maximum kept as a column and broadcast back, subtracted, exponentiated, lane sum
    kept as a column and broadcast back, divided. -/
theorem blockSoftmax_eq (P : FVec Ideal ⟨2, ![M, K]⟩ .f32) (h : (⟨2, ![M, K]⟩ : Shape).Reduces [1] (⟨1, ![M]⟩ : Shape))
    (hφ : FKind.Formats .f32) (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, K]⟩) :
    divf (exp (subf P (broadcastTo ⟨2, ![M, K]⟩ (shapeCast ⟨2, ![M, 1]⟩
          (multiReduction .maximumf [1] (⟨1, ![M]⟩ : Shape) P 0xFF800000#32 h hφ hmax) hc) hb)))
        (broadcastTo ⟨2, ![M, K]⟩ (shapeCast ⟨2, ![M, 1]⟩
          (multiReduction .add [1] (⟨1, ![M]⟩ : Shape)
            (exp (subf P (broadcastTo ⟨2, ![M, K]⟩ (shapeCast ⟨2, ![M, 1]⟩
              (multiReduction .maximumf [1] (⟨1, ![M]⟩ : Shape) P 0xFF800000#32 h hφ hmax) hc) hb)))
            0x00000000#32 h hφ hadd) hc) hb)
      = softmax P := by
  have hE : ∀ (r : Fin M) (k : Fin K),
      (exp (subf P (broadcastTo ⟨2, ![M, K]⟩ (shapeCast ⟨2, ![M, 1]⟩
          (multiReduction .maximumf [1] (⟨1, ![M]⟩ : Shape) P 0xFF800000#32 h hφ hmax) hc) hb)) : FVec Ideal ⟨2, ![M, K]⟩ .f32) (ix2 r k)
        = Ideal.exp (P (ix2 r k) - rowMax P r) := by
    intro r k
    show Ideal.exp (P (ix2 r k) - broadcastTo ⟨2, ![M, K]⟩ (shapeCast ⟨2, ![M, 1]⟩
          (multiReduction .maximumf [1] (⟨1, ![M]⟩ : Shape) P 0xFF800000#32 h hφ hmax) hc) hb (ix2 r k)) = _
    rw [alongRow_apply, column_apply, laneMax_apply]
  funext i
  obtain ⟨r, k, rfl⟩ : ∃ (r : Fin M) (k : Fin K), i = ix2 r k := ⟨i 0, i 1, eq_ix2 i⟩
  rw [divf_apply, alongRow_apply, column_apply, laneSum_apply, softmax_apply, hE r k]
  congr 1
  exact Finset.sum_congr rfl fun j _ => hE r j

end Cert.Softmax

end
-- ==== Proof.LibRowwise.lean ====
/-
  A dense layer with a bias row, and row softmax, compared row by row.

  Entry (r, c) of X·W + b depends on row r of X only, and entry (r, c) of a row softmax depends on row r of its operand
  only. So two arrays that agree on one row (possibly at different row numbers, as a block of rows and the whole array do)
  have the same dense-layer row and the same softmax row there. Stated for any extents.
-/
import proofs.«125561_j64424509440202_1_alg».proof.Proof.LibDense
import proofs.«125561_j64424509440202_1_alg».proof.Proof.LibSoftmax

noncomputable section

namespace Cert.Rowwise

open Idealize.ShloMosaic Idealize.ShloMosaic.ValueIdx Cert.Dense Cert.Softmax
open scoped BigOperators

variable {M M' K N : ℕ}

/-- The product X·W with the bias row B added down the rows: entry (r, c) is Σ_k X(r,k)·W(k,c) + B(0,c). -/
def affine (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => matProd X W i + B (ix2 (0 : Fin 1) (i 1))

theorem affine_apply (X : (⟨2, ![M, K]⟩ : Shape).Idx → EReal) (W : (⟨2, ![K, N]⟩ : Shape).Idx → EReal)
    (B : (⟨2, ![1, N]⟩ : Shape).Idx → EReal) (r : Fin M) (c : Fin N) :
    affine X W B (ix2 r c) = (∑ k : Fin K, X (ix2 r k) * W (ix2 k c)) + B (ix2 (0 : Fin 1) c) := rfl

/-- Two left factors that agree on a row give the same dense-layer row. -/
theorem affine_row_congr (X : (⟨2, ![M, K]⟩ : Shape).Idx → EReal) (X' : (⟨2, ![M', K]⟩ : Shape).Idx → EReal)
    (W : (⟨2, ![K, N]⟩ : Shape).Idx → EReal) (B : (⟨2, ![1, N]⟩ : Shape).Idx → EReal) (r : Fin M) (r' : Fin M')
    (h : ∀ k, X (ix2 r k) = X' (ix2 r' k)) (c : Fin N) : affine X W B (ix2 r c) = affine X' W B (ix2 r' c) := by
  rw [affine_apply, affine_apply]
  congr 1
  exact Finset.sum_congr rfl fun k _ => by rw [h k]

/-- Two arrays that agree on a row have the same softmax row. -/
theorem softmax_row_congr (L : (⟨2, ![M, K]⟩ : Shape).Idx → EReal) (L' : (⟨2, ![M', K]⟩ : Shape).Idx → EReal)
    (r : Fin M) (r' : Fin M') (h : ∀ k, L (ix2 r k) = L' (ix2 r' k)) (q : Fin K) :
    softmax L (ix2 r q) = softmax L' (ix2 r' q) := by
  have hm : rowMax L r = rowMax L' r' := by
    unfold rowMax
    congr 1
    funext k
    exact h k
  rw [softmax_apply, softmax_apply, hm, h q]
  congr 1
  exact Finset.sum_congr rfl fun j _ => by rw [h j]

end Cert.Rowwise

end
-- ==== Proof.LibHostSoftmax.lean ====
/-
  The host's spelling of a row maximum, read entry by entry on the extended reals.

  A host program takes a row maximum as a reduction with a maximum body from the initial value −∞. Read at row r it is the
  fold of max from −∞ over the row's entries, the same row maximum a lane reduction gives. A further maximum with −∞ changes
  nothing. Stated for any extents.
-/
import Idealize.ShloMosaic.PureOps.Reduce
import proofs.«125561_j64424509440202_1_alg».proof.Proof.LibSoftmax

noncomputable section

namespace Cert.Softmax

open Idealize.ShloMosaic Idealize.ShloMosaic.ValueIdx

variable {M K : ℕ}

/-- The host's reduction with a maximum body from −∞ over the columns, read at row r, is the row's maximum. -/
theorem hostRowMax_apply (L : FVec Ideal ⟨2, ![M, K]⟩ .f32) (h' : (⟨2, ![M, K]⟩ : Shape).ReducesTo [1] (⟨1, ![M]⟩ : Shape))
    (h : (⟨2, ![M, K]⟩ : Shape).Reduces [1] (⟨1, ![M]⟩ : Shape)) (hu : 0 < (⟨0, ![]⟩ : Shape).numel) (r : Fin M) :
    Host.reduce FloatOps.maximumf L (constant (⟨0, ![]⟩ : Shape) .f32 0xFF800000#32) h' hu (ix1 r) = rowMax L r := by
  rw [Host.reduce_eq_fold_single FloatOps.maximumf L _ h' h hu]
  unfold rowMax
  show (Finset.univ : Finset (Fin K)).fold max (Ideal.ofBits .f32 0xFF800000#32) (L ∘ h.lift (ix1 r)) = _
  refine congrArg (fun f => Finset.fold max (Ideal.ofBits .f32 0xFF800000#32) f (Finset.univ : Finset (Fin K))) ?_
  funext k
  exact congrArg L (lift_row h r k)

/-- The maximum with −∞ is the other operand. -/
theorem max_negInf (y : EReal) : max (Ideal.ofBits .f32 0xFF800000#32) y = y := by
  simp [Ideal.ofBits, Ideal.ieee]

/-- The same in the float operations' spelling of the maximum. -/
theorem maximumf_negInf (y : Ideal .f32) :
    FloatOps.maximumf (F := Ideal) (FloatOps.ofBits (F := Ideal) .f32 0xFF800000#32) y = y := max_negInf y

end Cert.Softmax

end
-- ==== Proof.RefStages.lean ====
/-
  The reference program's stages read as the network's layers.

  The reference computes, with whole-array host operations: the first product X·W1; the neighbour sums of its rows scaled by
  the edge weights; the combining step max(sums + product·factor + bias, 0); the same three steps for the second layer; the
  output layer hidden·Wl + bl; and its row softmax (row maximum from −∞, exponentials of the differences, their row sums,
  the quotient). The neighbour sums, the per-node factors and the edge weights are gathers and scatter-additions along the
  edge list; they are left as they are printed. Every other stage is read entry by entry and identified with one function
  of its operands: a matrix product, the combining step, the dense layer with a bias row, the row softmax.
-/
import proofs.«125561_j64424509440202_1_alg».proof.Proof.Gen.ReferenceIdeal.Read
import proofs.«125561_j64424509440202_1_alg».proof.Proof.LibDense
import proofs.«125561_j64424509440202_1_alg».proof.Proof.LibCombine
import proofs.«125561_j64424509440202_1_alg».proof.Proof.LibRowwise
import proofs.«125561_j64424509440202_1_alg».proof.Proof.LibHostSoftmax
import Idealize.ShloMosaic.Lib.IdealHost
import Idealize.ShloMosaic.Lib.StackMember

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.Dense Cert.Combine Cert.Rowwise Cert.Softmax
open scoped BigOperators

variable (x0 : (⟨S100000x128, .f32⟩ : BufTy).Contents (Elt Ideal)) (x1 : (⟨S128x64, .f32⟩ : BufTy).Contents (Elt Ideal))
  (x2 : (⟨S64, .f32⟩ : BufTy).Contents (Elt Ideal)) (x3 : (⟨S64x64, .f32⟩ : BufTy).Contents (Elt Ideal))
  (x4 : (⟨S64, .f32⟩ : BufTy).Contents (Elt Ideal)) (x5 : (⟨S64x16, .f32⟩ : BufTy).Contents (Elt Ideal))
  (x6 : (⟨S16, .f32⟩ : BufTy).Contents (Elt Ideal)) (x7 : (⟨S2x1600000, .i32⟩ : BufTy).Contents (Elt Ideal))

/-- The first product. -/
theorem product1 : val_main_v4 (F := Ideal) x0 x1 = matProd (M := 100000) (K := 128) (N := 64) x0 x1 := by
  unfold val_main_v4
  exact dotGeneral_eq_matProd _ rfl _ _

/-- The first layer after its combining step: neighbour sums, own product scaled by the squared inverse root degree, bias,
    positive part. -/
theorem layer1 : val_main_v53 (F := Ideal) x0 x1 x2 x7
    = combine (M := 100000) (K := 64) (val_main_v44 (F := Ideal) x0 x1 x7) (val_main_v4 (F := Ideal) x0 x1) (val_main_v45 (F := Ideal) x7) x2 := by
  funext i
  obtain ⟨r, k, rfl⟩ : ∃ (r : Fin 100000) (k : Fin 64), i = ix2 r k := ⟨i 0, i 1, eq_ix2 i⟩
  rw [val_main_v53_apply, val_main_v52_apply, val_main_v49_apply, val_main_v48_apply, val_main_v47_apply, val_main_v46_apply,
    val_main_v51_apply, val_main_v50_apply, val_main_call0_v0_apply, val_main_call0_cst_apply, combine_apply]
  have e1 : idx_main_v46 (idx_main_v47 (ix2 r k)) = ix1 r := funext fun a => Fin.ext (by match a with | ⟨0, _⟩ => rfl)
  have e2 : idx_main_v50 (idx_main_v51 (ix2 r k)) = ix1 k := funext fun a => Fin.ext (by match a with | ⟨0, _⟩ => rfl)
  rw [e1, e2]
  rfl

/-- The second product. -/
theorem product2 : val_main_v54 (F := Ideal) x0 x1 x2 x3 x7
    = matProd (M := 100000) (K := 64) (N := 64) (val_main_v53 (F := Ideal) x0 x1 x2 x7) x3 := by
  unfold val_main_v54
  exact dotGeneral_eq_matProd _ rfl _ _

/-- The second layer after its combining step. -/
theorem layer2 : val_main_v103 (F := Ideal) x0 x1 x2 x3 x4 x7
    = combine (M := 100000) (K := 64) (val_main_v94 (F := Ideal) x0 x1 x2 x3 x7) (val_main_v54 (F := Ideal) x0 x1 x2 x3 x7)
        (val_main_v95 (F := Ideal) x7) x4 := by
  funext i
  obtain ⟨r, k, rfl⟩ : ∃ (r : Fin 100000) (k : Fin 64), i = ix2 r k := ⟨i 0, i 1, eq_ix2 i⟩
  rw [val_main_v103_apply, val_main_v102_apply, val_main_v99_apply, val_main_v98_apply, val_main_v97_apply, val_main_v96_apply,
    val_main_v101_apply, val_main_v100_apply, val_main_call1_v0_apply, val_main_call1_cst_apply, combine_apply]
  have e1 : idx_main_v96 (idx_main_v97 (ix2 r k)) = ix1 r := funext fun a => Fin.ext (by match a with | ⟨0, _⟩ => rfl)
  have e2 : idx_main_v100 (idx_main_v101 (ix2 r k)) = ix1 k := funext fun a => Fin.ext (by match a with | ⟨0, _⟩ => rfl)
  rw [e1, e2]
  rfl

/-- The output layer: hidden rows times the output weights plus the bias, the bias read as a row. -/
theorem logits (h : (⟨1, ![16]⟩ : Shape).ShapeCasts ⟨2, ![1, 16]⟩) : val_main_v107 (F := Ideal) x0 x1 x2 x3 x4 x5 x6 x7
    = affine (M := 100000) (K := 64) (N := 16) (val_main_v103 (F := Ideal) x0 x1 x2 x3 x4 x7) x5 (shapeCast ⟨2, ![1, 16]⟩ x6 h) := by
  have hp : val_main_v104 (F := Ideal) x0 x1 x2 x3 x4 x5 x7
      = matProd (M := 100000) (K := 64) (N := 16) (val_main_v103 (F := Ideal) x0 x1 x2 x3 x4 x7) x5 := by
    unfold val_main_v104
    exact dotGeneral_eq_matProd _ rfl _ _
  funext i
  obtain ⟨r, q, rfl⟩ : ∃ (r : Fin 100000) (q : Fin 16), i = ix2 r q := ⟨i 0, i 1, eq_ix2 i⟩
  rw [val_main_v107_apply, val_main_v106_apply, val_main_v105_apply, hp, affine_apply, ValueIdx.shapeCast_a_1a_apply, matProd_apply]
  have e1 : idx_main_v105 (idx_main_v106 (ix2 r q)) = ix1 q := funext fun a => Fin.ext (by match a with | ⟨0, _⟩ => rfl)
  rw [e1]
  rfl

/-- The host's row maximum of the logits, from −∞. -/
theorem rowMax_logits (r : Fin 100000) :
    val_main_v108 (F := Ideal) x0 x1 x2 x3 x4 x5 x6 x7 (ix1 r) = rowMax (M := 100000) (K := 16) (val_main_v107 (F := Ideal) x0 x1 x2 x3 x4 x5 x6 x7) r := by
  unfold val_main_v108 val_main_cst_22
  generalize val_main_v107 (F := Ideal) x0 x1 x2 x3 x4 x5 x6 x7 = L
  exact hostRowMax_apply (M := 100000) (K := 16) L reducesTo_S100000x16_S100000_d1 (by decide) h_S_ r

/-- The exponentials of the logits minus their row maximum. -/
theorem expShift_logits (r : Fin 100000) (q : Fin 16) :
    val_main_v114 (F := Ideal) x0 x1 x2 x3 x4 x5 x6 x7 (ix2 r q)
      = Ideal.exp (val_main_v107 (F := Ideal) x0 x1 x2 x3 x4 x5 x6 x7 (ix2 r q)
          - rowMax (M := 100000) (K := 16) (val_main_v107 (F := Ideal) x0 x1 x2 x3 x4 x5 x6 x7) r) := by
  rw [val_main_v114_apply, val_main_v113_apply, val_main_v112_apply, val_main_v111_apply, val_main_v110_apply, val_main_v109_apply,
    val_main_cst_23_apply]
  have e1 : idx_main_v111 (idx_main_v112 (ix2 r q)) = ix1 r := funext fun a => Fin.ext (by match a with | ⟨0, _⟩ => rfl)
  rw [e1, rowMax_logits, maximumf_negInf]
  generalize val_main_v107 (F := Ideal) x0 x1 x2 x3 x4 x5 x6 x7 = L
  rfl

/-- The probabilities: the row softmax of the logits. -/
theorem probs : val_main_v118 (F := Ideal) x0 x1 x2 x3 x4 x5 x6 x7
    = softmax (M := 100000) (K := 16) (val_main_v107 (F := Ideal) x0 x1 x2 x3 x4 x5 x6 x7) := by
  funext i
  obtain ⟨r, q, rfl⟩ : ∃ (r : Fin 100000) (q : Fin 16), i = ix2 r q := ⟨i 0, i 1, eq_ix2 i⟩
  rw [val_main_v118_apply, val_main_v117_apply, val_main_v116_apply, val_main_v115_apply, val_main_cst_24_apply, softmax_apply,
    expShift_logits]
  have e1 : idx_main_v116 (idx_main_v117 (ix2 r q)) = ix1 r := funext fun a => Fin.ext (by match a with | ⟨0, _⟩ => rfl)
  rw [e1]
  show Ideal.div _ (Ideal.ofBits .f32 0x00000000#32 + ∑ k : Fin 16, val_main_v114 (F := Ideal) x0 x1 x2 x3 x4 x5 x6 x7 (idx_main_v115 (ix1 r) k)) = _
  rw [Ideal.ofBits_zero_f32, zero_add]
  refine congrArg (Ideal.div _) (Finset.sum_congr rfl fun k _ => ?_)
  have e2 : idx_main_v115 (ix1 r) k = ix2 r k := funext fun a => Fin.ext (by match a with | ⟨0, _⟩ => rfl | ⟨1, _⟩ => rfl)
  rw [e2, expShift_logits]

end Cert.ReferenceIdeal.RefValue

end
-- ==== Proof.ChainA.lean ====
/-
  The idealized kernel's buffers, boundary by boundary: from the launch to the entry of the second region.

  Before the first region the host computes, from the edge list alone: the two index vectors, each node's degree plus
  one, its inverse square root, the square of that, and each edge's weight (the product of the two endpoints' inverse
  roots). The first region writes the product of the features by the first weights. The host then gathers the
  product's rows along the sources, scales them by the edge weights and sums them into the targets, and lays out the
  squared inverse roots as a column and the bias as a row. Each of these values is the stage of the same name in the
  reference program, applied to the same argument arrays; every other buffer keeps what it held.
-/
import proofs.«125561_j64424509440202_1_alg».proof.Proof.Gen.KernelIdeal.Frame
import proofs.«125561_j64424509440202_1_alg».proof.Proof.Gen.ReferenceIdeal.Read
import proofs.«125561_j64424509440202_1_alg».proof.Proof.FirstProduct
import proofs.«125561_j64424509440202_1_alg».proof.Proof.RefStages
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Read (val_main_v1 val_main_v3 val_main_v4 val_main_v31 val_main_v44 val_main_v45 val_main_v53 val_main_v54 val_main_v94 val_main_v95 val_main_v103 val_main_v107 val_main_v118)

variable (m : (ℓ : Loc nD τ sig) → Buf (Elt Ideal) ℓ) (ρ : Dev nD → PrngReg) (c : Dev nD)

/-- The eight argument arrays as launched, on core c. -/
abbrev x0 : (⟨Cert.ReferenceIdeal.S100000x128, .f32⟩ : BufTy).Contents (Elt Ideal) := m ((c.tc : Thread nD τ).loc main_arg0)
abbrev x1 : (⟨Cert.ReferenceIdeal.S128x64, .f32⟩ : BufTy).Contents (Elt Ideal) := m ((c.tc : Thread nD τ).loc main_arg1)
abbrev x2 : (⟨Cert.ReferenceIdeal.S64, .f32⟩ : BufTy).Contents (Elt Ideal) := m ((c.tc : Thread nD τ).loc main_arg2)
abbrev x3 : (⟨Cert.ReferenceIdeal.S64x64, .f32⟩ : BufTy).Contents (Elt Ideal) := m ((c.tc : Thread nD τ).loc main_arg3)
abbrev x4 : (⟨Cert.ReferenceIdeal.S64, .f32⟩ : BufTy).Contents (Elt Ideal) := m ((c.tc : Thread nD τ).loc main_arg4)
abbrev x5 : (⟨Cert.ReferenceIdeal.S64x16, .f32⟩ : BufTy).Contents (Elt Ideal) := m ((c.tc : Thread nD τ).loc main_arg5)
abbrev x6 : (⟨Cert.ReferenceIdeal.S16, .f32⟩ : BufTy).Contents (Elt Ideal) := m ((c.tc : Thread nD τ).loc main_arg6)
abbrev x7 : (⟨Cert.ReferenceIdeal.S2x1600000, .i32⟩ : BufTy).Contents (Elt Ideal) := m ((c.tc : Thread nD τ).loc main_arg7)

/-! ## After the first stretch of host operations -/

set_option maxHeartbeats 4000000 in
/-- Not written here: `main_arg0` keeps what it held. -/
theorem W1_arg0 : W1 m ρ c (Proc.devRef .tc main_arg0) = (x0 m c) := by
  show StableHlo.after hostOps0 (W0 m ρ c) (Proc.devRef .tc main_arg0) = _
  after_results_simp

set_option maxHeartbeats 4000000 in
/-- Not written here: `main_arg1` keeps what it held. -/
theorem W1_arg1 : W1 m ρ c (Proc.devRef .tc main_arg1) = (x1 m c) := by
  show StableHlo.after hostOps0 (W0 m ρ c) (Proc.devRef .tc main_arg1) = _
  after_results_simp

set_option maxHeartbeats 4000000 in
/-- Not written here: `main_arg2` keeps what it held. -/
theorem W1_arg2 : W1 m ρ c (Proc.devRef .tc main_arg2) = (x2 m c) := by
  show StableHlo.after hostOps0 (W0 m ρ c) (Proc.devRef .tc main_arg2) = _
  after_results_simp

set_option maxHeartbeats 4000000 in
/-- Not written here: `main_arg3` keeps what it held. -/
theorem W1_arg3 : W1 m ρ c (Proc.devRef .tc main_arg3) = (x3 m c) := by
  show StableHlo.after hostOps0 (W0 m ρ c) (Proc.devRef .tc main_arg3) = _
  after_results_simp

set_option maxHeartbeats 4000000 in
/-- Not written here: `main_arg4` keeps what it held. -/
theorem W1_arg4 : W1 m ρ c (Proc.devRef .tc main_arg4) = (x4 m c) := by
  show StableHlo.after hostOps0 (W0 m ρ c) (Proc.devRef .tc main_arg4) = _
  after_results_simp

set_option maxHeartbeats 4000000 in
/-- Not written here: `main_arg5` keeps what it held. -/
theorem W1_arg5 : W1 m ρ c (Proc.devRef .tc main_arg5) = (x5 m c) := by
  show StableHlo.after hostOps0 (W0 m ρ c) (Proc.devRef .tc main_arg5) = _
  after_results_simp

set_option maxHeartbeats 4000000 in
/-- Not written here: `main_arg6` keeps what it held. -/
theorem W1_arg6 : W1 m ρ c (Proc.devRef .tc main_arg6) = (x6 m c) := by
  show StableHlo.after hostOps0 (W0 m ρ c) (Proc.devRef .tc main_arg6) = _
  after_results_simp

set_option maxHeartbeats 4000000 in
/-- The sources of the edges. -/
theorem W1_v1 : W1 m ρ c (Proc.devRef .tc main_v1) = val_main_v1 (F := Ideal) (x7 m c) := by
  show StableHlo.after hostOps0 (W0 m ρ c) (Proc.devRef .tc main_v1) = _
  after_results_simp
  rfl

set_option maxHeartbeats 4000000 in
/-- The targets of the edges. -/
theorem W1_v3 : W1 m ρ c (Proc.devRef .tc main_v3) = val_main_v3 (F := Ideal) (x7 m c) := by
  show StableHlo.after hostOps0 (W0 m ρ c) (Proc.devRef .tc main_v3) = _
  after_results_simp
  rfl

set_option maxHeartbeats 4000000 in
/-- The squared inverse root of each node's degree plus one. -/
theorem W1_v16 : W1 m ρ c (Proc.devRef .tc main_v16) = val_main_v45 (F := Ideal) (x7 m c) := by
  show StableHlo.after hostOps0 (W0 m ρ c) (Proc.devRef .tc main_v16) = _
  after_results_simp
  rfl

set_option maxHeartbeats 4000000 in
/-- Each edge's weight. -/
theorem W1_v31 : W1 m ρ c (Proc.devRef .tc main_v31) = val_main_v31 (F := Ideal) (x7 m c) := by
  show StableHlo.after hostOps0 (W0 m ρ c) (Proc.devRef .tc main_v31) = _
  after_results_simp
  rfl

/-! ## After the first region -/

/-- The first region leaves the product of the features by the first weights. -/
theorem W2_v32 : W2 m ρ c (Proc.devRef .tc main_v32) = val_main_v4 (F := Ideal) (x0 m c) (x1 m c) := by
  refine (W2_arr m ρ c 2).trans ((Cert.KernelIdeal.FirstProduct.final (V1 m ρ) c).trans ?_)
  show Cert.Dense.matProd (M := 100000) (K := 128) (N := 64) (W1 m ρ c (Proc.devRef .tc main_arg0)) (W1 m ρ c (Proc.devRef .tc main_arg1)) = _
  rw [W1_arg0 m ρ c, W1_arg1 m ρ c]
  exact (Cert.ReferenceIdeal.RefValue.product1 (x0 m c) (x1 m c)).symm
/-- Not written here: `main_arg2` keeps what it held. -/
theorem W2_arg2 : W2 m ρ c (Proc.devRef .tc main_arg2) = (x2 m c) :=
  (W2_of_ne m ρ c main_arg2 (by decide)).trans (W1_arg2 m ρ c)

/-- Not written here: `main_arg3` keeps what it held. -/
theorem W2_arg3 : W2 m ρ c (Proc.devRef .tc main_arg3) = (x3 m c) :=
  (W2_of_ne m ρ c main_arg3 (by decide)).trans (W1_arg3 m ρ c)

/-- Not written here: `main_arg4` keeps what it held. -/
theorem W2_arg4 : W2 m ρ c (Proc.devRef .tc main_arg4) = (x4 m c) :=
  (W2_of_ne m ρ c main_arg4 (by decide)).trans (W1_arg4 m ρ c)

/-- Not written here: `main_arg5` keeps what it held. -/
theorem W2_arg5 : W2 m ρ c (Proc.devRef .tc main_arg5) = (x5 m c) :=
  (W2_of_ne m ρ c main_arg5 (by decide)).trans (W1_arg5 m ρ c)

/-- Not written here: `main_arg6` keeps what it held. -/
theorem W2_arg6 : W2 m ρ c (Proc.devRef .tc main_arg6) = (x6 m c) :=
  (W2_of_ne m ρ c main_arg6 (by decide)).trans (W1_arg6 m ρ c)

/-- Not written here: `main_v1` keeps what it held. -/
theorem W2_v1 : W2 m ρ c (Proc.devRef .tc main_v1) = val_main_v1 (F := Ideal) (x7 m c) :=
  (W2_of_ne m ρ c main_v1 (by decide)).trans (W1_v1 m ρ c)

/-- Not written here: `main_v3` keeps what it held. -/
theorem W2_v3 : W2 m ρ c (Proc.devRef .tc main_v3) = val_main_v3 (F := Ideal) (x7 m c) :=
  (W2_of_ne m ρ c main_v3 (by decide)).trans (W1_v3 m ρ c)

/-- Not written here: `main_v16` keeps what it held. -/
theorem W2_v16 : W2 m ρ c (Proc.devRef .tc main_v16) = val_main_v45 (F := Ideal) (x7 m c) :=
  (W2_of_ne m ρ c main_v16 (by decide)).trans (W1_v16 m ρ c)

/-- Not written here: `main_v31` keeps what it held. -/
theorem W2_v31 : W2 m ρ c (Proc.devRef .tc main_v31) = val_main_v31 (F := Ideal) (x7 m c) :=
  (W2_of_ne m ρ c main_v31 (by decide)).trans (W1_v31 m ρ c)

/-! ## After the second stretch of host operations -/

set_option maxHeartbeats 4000000 in
/-- The first layer's neighbour sums. -/
theorem W3_v45 : W3 m ρ c (Proc.devRef .tc main_v45) = val_main_v44 (F := Ideal) (x0 m c) (x1 m c) (x7 m c) := by
  show StableHlo.after hostOps1 (W2 m ρ c) (Proc.devRef .tc main_v45) = _
  after_results_simp
  rw [W2_v3 m ρ c, W2_v32 m ρ c, W2_v1 m ρ c, W2_v31 m ρ c]
  rfl

set_option maxHeartbeats 4000000 in
/-- Not written here: `main_v32` keeps what it held. -/
theorem W3_v32 : W3 m ρ c (Proc.devRef .tc main_v32) = val_main_v4 (F := Ideal) (x0 m c) (x1 m c) := by
  show StableHlo.after hostOps1 (W2 m ρ c) (Proc.devRef .tc main_v32) = _
  after_results_simp
  exact W2_v32 m ρ c

set_option maxHeartbeats 4000000 in
/-- The squared inverse roots as a column. -/
theorem W3_v46 : W3 m ρ c (Proc.devRef .tc main_v46) = shapeCast (⟨2, ![100000, 1]⟩ : Shape) (val_main_v45 (F := Ideal) (x7 m c)) shapeCasts_S100000_S100000x1 := by
  show StableHlo.after hostOps1 (W2 m ρ c) (Proc.devRef .tc main_v46) = _
  after_results_simp
  rw [W2_v16 m ρ c]
  rfl

set_option maxHeartbeats 4000000 in
/-- The first bias as a row. -/
theorem W3_v47 : W3 m ρ c (Proc.devRef .tc main_v47) = shapeCast (⟨2, ![1, 64]⟩ : Shape) (x2 m c) shapeCasts_S64_S1x64 := by
  show StableHlo.after hostOps1 (W2 m ρ c) (Proc.devRef .tc main_v47) = _
  after_results_simp
  rw [W2_arg2 m ρ c]
  rfl

set_option maxHeartbeats 4000000 in
/-- Not written here: `main_arg3` keeps what it held. -/
theorem W3_arg3 : W3 m ρ c (Proc.devRef .tc main_arg3) = (x3 m c) := by
  show StableHlo.after hostOps1 (W2 m ρ c) (Proc.devRef .tc main_arg3) = _
  after_results_simp
  exact W2_arg3 m ρ c

set_option maxHeartbeats 4000000 in
/-- Not written here: `main_arg4` keeps what it held. -/
theorem W3_arg4 : W3 m ρ c (Proc.devRef .tc main_arg4) = (x4 m c) := by
  show StableHlo.after hostOps1 (W2 m ρ c) (Proc.devRef .tc main_arg4) = _
  after_results_simp
  exact W2_arg4 m ρ c

set_option maxHeartbeats 4000000 in
/-- Not written here: `main_arg5` keeps what it held. -/
theorem W3_arg5 : W3 m ρ c (Proc.devRef .tc main_arg5) = (x5 m c) := by
  show StableHlo.after hostOps1 (W2 m ρ c) (Proc.devRef .tc main_arg5) = _
  after_results_simp
  exact W2_arg5 m ρ c

set_option maxHeartbeats 4000000 in
/-- Not written here: `main_arg6` keeps what it held. -/
theorem W3_arg6 : W3 m ρ c (Proc.devRef .tc main_arg6) = (x6 m c) := by
  show StableHlo.after hostOps1 (W2 m ρ c) (Proc.devRef .tc main_arg6) = _
  after_results_simp
  exact W2_arg6 m ρ c

set_option maxHeartbeats 4000000 in
/-- Not written here: `main_v1` keeps what it held. -/
theorem W3_v1 : W3 m ρ c (Proc.devRef .tc main_v1) = val_main_v1 (F := Ideal) (x7 m c) := by
  show StableHlo.after hostOps1 (W2 m ρ c) (Proc.devRef .tc main_v1) = _
  after_results_simp
  exact W2_v1 m ρ c

set_option maxHeartbeats 4000000 in
/-- Not written here: `main_v3` keeps what it held. -/
theorem W3_v3 : W3 m ρ c (Proc.devRef .tc main_v3) = val_main_v3 (F := Ideal) (x7 m c) := by
  show StableHlo.after hostOps1 (W2 m ρ c) (Proc.devRef .tc main_v3) = _
  after_results_simp
  exact W2_v3 m ρ c

set_option maxHeartbeats 4000000 in
/-- Not written here: `main_v16` keeps what it held. -/
theorem W3_v16 : W3 m ρ c (Proc.devRef .tc main_v16) = val_main_v45 (F := Ideal) (x7 m c) := by
  show StableHlo.after hostOps1 (W2 m ρ c) (Proc.devRef .tc main_v16) = _
  after_results_simp
  exact W2_v16 m ρ c

set_option maxHeartbeats 4000000 in
/-- Not written here: `main_v31` keeps what it held. -/
theorem W3_v31 : W3 m ρ c (Proc.devRef .tc main_v31) = val_main_v31 (F := Ideal) (x7 m c) := by
  show StableHlo.after hostOps1 (W2 m ρ c) (Proc.devRef .tc main_v31) = _
  after_results_simp
  exact W2_v31 m ρ c

end Cert.KernelIdeal.Chain

end
-- ==== Proof.FirstCombine.lean ====
/-
  The second region: the first layer's neighbour sums combined with the self term and the bias.

  The region walks ten blocks of 10000 rows. At each block the body reads the block of the neighbour sums A, the block of the
  node's own rows X, the block of the per-node factors (a column) and the bias (a row), and writes
  max(A + X·factor + bias, 0) for the block. Each entry depends on its own row and column only, so block t of the
  result is block t of the whole combined array; the ten blocks cover all rows.
-/
import proofs.«125561_j64424509440202_1_alg».proof.Proof.Gen.KernelIdeal.Frame
import proofs.«125561_j64424509440202_1_alg».proof.Proof.LibCombine
import Idealize.ShloMosaic.Lib.Pipeline.Value
import Idealize.ShloMosaic.Lib.ValueIdx

set_option maxRecDepth 16384

noncomputable section

namespace Cert.KernelIdeal.FirstCombine

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The four arrays the region finds at entry: neighbour sums, own rows, per-node factors (a column), bias (a row). -/
abbrev inA (c : Dev nD) : S100000x64.Idx → EReal := V c (Pipeline.arrRef spec1 0)
abbrev inX (c : Dev nD) : S100000x64.Idx → EReal := V c (Pipeline.arrRef spec1 1)
abbrev inD (c : Dev nD) : S100000x1.Idx → EReal := V c (Pipeline.arrRef spec1 2)
abbrev inB (c : Dev nD) : S1x64.Idx → EReal := V c (Pipeline.arrRef spec1 3)

theorem hz : (![0, 0] : Fin 2 → Nat) = fun _ => 0 := funext fun a => by fin_cases a <;> rfl

/-- The body's value on a block: the combining step of the block's rows. -/
theorem pay_eq (x0 x1 : Vec Ideal S10000x64 .f32) (x2 : Vec Ideal S10000x1 .f32) (x3 : Vec Ideal S1x64 .f32) :
    k1_pay1 (F := Ideal) x0 x1 x2 x3 = Cert.Combine.combineCR (M := 10000) (K := 64) x0 x1 x2 x3 := by
  unfold k1_pay1
  simp only [shapeCast_self]
  exact Cert.Combine.blockCombine_eq (M := 10000) (K := 64) x0 x1 x2 x3 _ _

/-- Where each window's block sits at grid point t: the row blocks move with t, the bias row stays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of rows of the whole combined array. -/
theorem flushed_eq (c : Dev nD) (t : Fin cfg1.N) :
    (dat1 V c).flushed 4 t = ((cfg1.win 4).blk t).view.read (Elt Ideal)
      (Cert.Combine.combineCR (M := 100000) (K := 64) (inA V c) (inX V c)
        (inD V c) (inB V c)) := by
  show (cfg1.win 4).cut (grid1.coords t) ((dat1 V c).after 4 t) = _
  rw [after1_4]
  unfold out1_4
  rw [View.canon_unit_zero hz]
  simp only [View.ld_unit_zero (S := S10000x64) hz, View.ld_unit_zero (S := S10000x1) hz, View.ld_unit_zero (S := S1x64) hz]
  rw [pay_eq]
  obtain ⟨e0, e1, e2, e3, e4, e5, e6, e7, e8, e9⟩ := idx_facts t
  have hN : grid1.N = 10 := N_1
  have ht : t.val < 10 := (show t.val < grid1.N from t.isLt).trans_eq hN
  funext j
  obtain ⟨p, q, rfl⟩ : ∃ (p : Fin 10000) (q : Fin 64), j = ix2 p q := ⟨j 0, j 1, eq_ix2 j⟩
  have hp : p.val < 10000 := p.isLt
  have hr : t.val * 10000 + p.val < 100000 := by omega
  have hemb : ((cfg1.win 4).blk t).view.emb (ix2 p q) = ix2 (⟨t.val * 10000 + p.val, hr⟩ : Fin 100000) q := by
    funext a; apply Fin.ext
    match a with
    | ⟨0, _⟩ => show win1_4.index t (0 : Fin 2) * 10000 + 1 * p.val = t.val * 10000 + p.val; omega
    | ⟨1, _⟩ => show win1_4.index t (1 : Fin 2) * 64 + 1 * q.val = q.val; omega
  have h0 : ((cfg1.win 0).blk t).view.emb (ix2 p q) = ix2 (⟨t.val * 10000 + p.val, hr⟩ : Fin 100000) q := by
    funext a; apply Fin.ext
    match a with
    | ⟨0, _⟩ => show win1_0.index t (0 : Fin 2) * 10000 + 1 * p.val = t.val * 10000 + p.val; omega
    | ⟨1, _⟩ => show win1_0.index t (1 : Fin 2) * 64 + 1 * q.val = q.val; omega
  have h1 : ((cfg1.win 1).blk t).view.emb (ix2 p q) = ix2 (⟨t.val * 10000 + p.val, hr⟩ : Fin 100000) q := by
    funext a; apply Fin.ext
    match a with
    | ⟨0, _⟩ => show win1_1.index t (0 : Fin 2) * 10000 + 1 * p.val = t.val * 10000 + p.val; omega
    | ⟨1, _⟩ => show win1_1.index t (1 : Fin 2) * 64 + 1 * q.val = q.val; omega
  have h2 : ((cfg1.win 2).blk t).view.emb (ix2 p (0 : Fin 1)) = ix2 (⟨t.val * 10000 + p.val, hr⟩ : Fin 100000) (0 : Fin 1) := by
    funext a; apply Fin.ext
    match a with
    | ⟨0, _⟩ => show win1_2.index t (0 : Fin 2) * 10000 + 1 * p.val = t.val * 10000 + p.val; omega
    | ⟨1, _⟩ => show win1_2.index t (1 : Fin 2) * 1 + 1 * 0 = 0; omega
  have h3 : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 64 + 1 * q.val = q.val; omega
  show Cert.Combine.combineCR (M := 10000) (K := 64) (iblk1 V c 0 t) (iblk1 V c 1 t) (iblk1 V c 2 t) (iblk1 V c 3 t) (ix2 p q)
    = Cert.Combine.combineCR (M := 100000) (K := 64) (inA V c) (inX V c)
        (inD V c) (inB V c) (((cfg1.win 4).blk t).view.emb (ix2 p q))
  rw [hemb, Cert.Combine.combineCR_apply, Cert.Combine.combineCR_apply]
  show max (inA V c (((cfg1.win 0).blk t).view.emb (ix2 p q))
        + inX V c (((cfg1.win 1).blk t).view.emb (ix2 p q))
          * inD V c (((cfg1.win 2).blk t).view.emb (ix2 p (0 : Fin 1)))
        + inB V c (((cfg1.win 3).blk t).view.emb (ix2 (0 : Fin 1) q))) Cert.Combine.zeroWord = _
  rw [h0, h1, h2, h3]

/-- An index of the array is in point t's block iff each coordinate is in the block's range on its axis. -/
theorem mem_blk (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v48).slice (win1_4.rect t)).set ↔ _
  rw [View.set_slice_whole, Rect.mem_set_unit]
  exact Iff.rfl

/-- Every row lies in the block of the point numbered by its quotient by 10000. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : grid1.N = 10 := N_1
  have hlt : (i 0).val / 10000 < cfg1.N := by show _ < grid1.N; omega
  obtain ⟨e0, e1, e2, e3, e4, e5, e6, e7, e8, e9⟩ := idx_facts ⟨(i 0).val / 10000, hlt⟩
  refine ⟨⟨(i 0).val / 10000, hlt⟩, flush1_4 _, ?_⟩
  rw [mem_blk]
  intro a
  match a with
  | ⟨0, _⟩ =>
    show win1_4.index ⟨(i 0).val / 10000, hlt⟩ (0 : Fin 2) * 10000 ≤ (i 0).val ∧ (i 0).val < win1_4.index ⟨(i 0).val / 10000, hlt⟩ (0 : Fin 2) * 10000 + 10000
    rw [e8]; show (i 0).val / 10000 * 10000 ≤ (i 0).val ∧ (i 0).val < (i 0).val / 10000 * 10000 + 10000; omega
  | ⟨1, _⟩ =>
    show win1_4.index ⟨(i 0).val / 10000, hlt⟩ (1 : Fin 2) * 64 ≤ (i 1).val ∧ (i 1).val < win1_4.index ⟨(i 0).val / 10000, hlt⟩ (1 : Fin 2) * 64 + 64
    rw [e9]; omega

/-- The array the region leaves: the combining step of the four arrays it found at entry. -/
theorem final (c : Dev nD) :
    (dat1 V c).arrAt 4 cfg1.N
      = Cert.Combine.combineCR (M := 100000) (K := 64) (inA V c) (inX V c)
          (inD V c) (inB V c) :=
  (dat1 V c).arrAt_eq_of_cover 4 _ (fun t _ => flushed_eq V c t) cover

end Cert.KernelIdeal.FirstCombine

end
-- ==== Proof.SecondProduct.lean ====
/-
  The third region: the first layer's output times the second layer's weights.

  The region walks ten blocks of 10000 rows. At each block the body multiplies the block of rows by the whole weight
  matrix into a zero accumulator and writes the block of the product back. Entry (r, c) of a product depends on row r
  of the left factor only, so block t of rows of the whole product is the product of block t of rows; the ten blocks
  cover all 100000 rows, so the array the region leaves is the whole product of the two arrays it found at entry.
  (Changes of float format are the identity on the extended reals.)
-/
import proofs.«125561_j64424509440202_1_alg».proof.Proof.Gen.KernelIdeal.Frame
import proofs.«125561_j64424509440202_1_alg».proof.Proof.LibDense
import Idealize.ShloMosaic.Lib.Pipeline.Value
import Idealize.ShloMosaic.Lib.ValueIdx
import Idealize.ShloMosaic.Lib.KernelVsHost
import Idealize.ShloMosaic.Lib.StackMember

set_option maxRecDepth 16384

noncomputable section

namespace Cert.KernelIdeal.SecondProduct

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The two arrays the region finds at entry: the rows to multiply and the weight matrix. -/
abbrev inX (c : Dev nD) : S100000x64.Idx → EReal := V c (Pipeline.arrRef spec2 0)
abbrev inW (c : Dev nD) : S64x64.Idx → EReal := V c (Pipeline.arrRef spec2 1)

theorem hz : (![0, 0] : Fin 2 → Nat) = fun _ => 0 := funext fun a => by fin_cases a <;> rfl

/-- The body's value on a block of rows: the product of the block by the weight matrix. -/
theorem pay_eq (x0 : Vec Ideal S10000x64 .f32) (x1 : Vec Ideal S64x64 .f32) :
    k2_pay1 (F := Ideal) x0 x1 = Cert.Dense.matProd (M := 10000) (K := 64) (N := 64) x0 x1 := by
  funext i
  obtain ⟨r, q, rfl⟩ : ∃ (r : Fin 10000) (q : Fin 64), i = ix2 r q := ⟨i 0, i 1, eq_ix2 i⟩
  unfold k2_pay1
  simp only [shapeCast_self]
  have hd : dot_S10000x64_S64x64_S10000x64_1_0_0_1_n_n = DotDims.plain 10000 64 64 := rfl
  rw [matmul_zero_eq_dotGeneral, hd, StackMember.dotGeneral_plain_apply, Cert.Dense.matProd_apply]
  rfl

/-- Where each window's block sits at grid point t: the row blocks move with t, the weight matrix stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of rows of the whole product. -/
theorem flushed_eq (c : Dev nD) (t : Fin cfg2.N) :
    (dat2 V c).flushed 2 t = ((cfg2.win 2).blk t).view.read (Elt Ideal)
      (Cert.Dense.matProd (M := 100000) (K := 64) (N := 64) (inX V c) (inW V c)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  rw [pay_eq]
  obtain ⟨e0, e1, e2, e3, e4, e5⟩ := idx_facts t
  have hN : grid2.N = 10 := N_2
  have ht : t.val < 10 := (show t.val < grid2.N from t.isLt).trans_eq hN
  funext j
  obtain ⟨p, q, rfl⟩ : ∃ (p : Fin 10000) (q : Fin 64), j = ix2 p q := ⟨j 0, j 1, eq_ix2 j⟩
  have hp : p.val < 10000 := p.isLt
  have hr : t.val * 10000 + p.val < 100000 := by omega
  have hemb : ((cfg2.win 2).blk t).view.emb (ix2 p q) = ix2 (⟨t.val * 10000 + p.val, hr⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 64 + 1 * q.val = q.val; omega
  show Cert.Dense.matProd (M := 10000) (K := 64) (N := 64) (iblk2 V c 0 t) (iblk2 V c 1 t) (ix2 p q)
    = Cert.Dense.matProd (M := 100000) (K := 64) (N := 64) (inX V c) (inW V c)
        (((cfg2.win 2).blk t).view.emb (ix2 p q))
  rw [hemb, Cert.Dense.matProd_apply, Cert.Dense.matProd_apply]
  refine Finset.sum_congr rfl fun kk _ => ?_
  have h0 : ((cfg2.win 0).blk t).view.emb (ix2 p kk) = ix2 (⟨t.val * 10000 + p.val, hr⟩ : Fin 100000) kk := by
    funext a; apply Fin.ext
    match a with
    | ⟨0, _⟩ => show win2_0.index t (0 : Fin 2) * 10000 + 1 * p.val = t.val * 10000 + p.val; omega
    | ⟨1, _⟩ => show win2_0.index t (1 : Fin 2) * 64 + 1 * kk.val = kk.val; omega
  have h1 : ((cfg2.win 1).blk t).view.emb (ix2 kk q) = ix2 kk q := by
    funext a; apply Fin.ext
    match a with
    | ⟨0, _⟩ => show win2_1.index t (0 : Fin 2) * 64 + 1 * kk.val = kk.val; omega
    | ⟨1, _⟩ => show win2_1.index t (1 : Fin 2) * 64 + 1 * q.val = q.val; omega
  show inX V c (((cfg2.win 0).blk t).view.emb (ix2 p kk)) * inW V c (((cfg2.win 1).blk t).view.emb (ix2 kk q)) = _
  rw [h0, h1]

/-- An index of the array is in point t's block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v49).slice (win2_2.rect t)).set ↔ _
  rw [View.set_slice_whole, Rect.mem_set_unit]
  exact Iff.rfl

/-- Every row lies in the block of the point numbered by its quotient by 10000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 10 := N_2
  have hlt : (i 0).val / 10000 < cfg2.N := by show _ < grid2.N; omega
  obtain ⟨e0, e1, e2, e3, e4, e5⟩ := idx_facts ⟨(i 0).val / 10000, hlt⟩
  refine ⟨⟨(i 0).val / 10000, hlt⟩, flush2_2 _, ?_⟩
  rw [mem_blk]
  intro a
  match a with
  | ⟨0, _⟩ =>
    show win2_2.index ⟨(i 0).val / 10000, hlt⟩ (0 : Fin 2) * 10000 ≤ (i 0).val ∧ (i 0).val < win2_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, hlt⟩ (1 : Fin 2) * 64 ≤ (i 1).val ∧ (i 1).val < win2_2.index ⟨(i 0).val / 10000, hlt⟩ (1 : Fin 2) * 64 + 64
    rw [e5]; omega

/-- The array the region leaves: the whole product of the two arrays it found at entry. -/
theorem final (c : Dev nD) :
    (dat2 V c).arrAt 2 cfg2.N
      = Cert.Dense.matProd (M := 100000) (K := 64) (N := 64) (inX V c) (inW V c) :=
  (dat2 V c).arrAt_eq_of_cover 2 _ (fun t _ => flushed_eq V c t) cover

end Cert.KernelIdeal.SecondProduct

end
-- ==== Proof.ChainB.lean ====
/-
  The idealized kernel's buffers, boundary by boundary: from the second region to the entry of the fourth.

  The second region combines the first layer's neighbour sums, its product, the column of squared inverse roots and the
  bias row into the first layer's output. The third region multiplies that output by the second weights. The host then
  forms the second layer's neighbour sums from that product and the same edge weights, and lays out the column and the
  second bias row again. Each value is the reference program's stage of the same meaning at the same argument arrays.
-/
import proofs.«125561_j64424509440202_1_alg».proof.Proof.ChainA
import proofs.«125561_j64424509440202_1_alg».proof.Proof.FirstCombine
import proofs.«125561_j64424509440202_1_alg».proof.Proof.SecondProduct

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Read (val_main_v1 val_main_v3 val_main_v4 val_main_v31 val_main_v44 val_main_v45 val_main_v53 val_main_v54 val_main_v94 val_main_v95 val_main_v103 val_main_v107 val_main_v118)

variable (m : (ℓ : Loc nD τ sig) → Buf (Elt Ideal) ℓ) (ρ : Dev nD → PrngReg) (c : Dev nD)

/-! ## After the second region -/

/-- The second region leaves the first layer's output. -/
theorem W4_v48 : W4 m ρ c (Proc.devRef .tc main_v48) = val_main_v53 (F := Ideal) (x0 m c) (x1 m c) (x2 m c) (x7 m c) := by
  refine (W4_arr m ρ c 4).trans ((Cert.KernelIdeal.FirstCombine.final (V3 m ρ) c).trans ?_)
  show Cert.Combine.combineCR (M := 100000) (K := 64) (W3 m ρ c (Proc.devRef .tc main_v45)) (W3 m ρ c (Proc.devRef .tc main_v32)) (W3 m ρ c (Proc.devRef .tc main_v46)) (W3 m ρ c (Proc.devRef .tc main_v47)) = _
  rw [W3_v45 m ρ c, W3_v32 m ρ c, W3_v46 m ρ c, W3_v47 m ρ c]
  exact (Cert.Combine.combineCR_casts _ _ _ _ _ _).trans (Cert.ReferenceIdeal.RefValue.layer1 (x0 m c) (x1 m c) (x2 m c) (x7 m c)).symm

/-- Not written here: `main_arg3` keeps what it held. -/
theorem W4_arg3 : W4 m ρ c (Proc.devRef .tc main_arg3) = (x3 m c) :=
  (W4_of_ne m ρ c main_arg3 (by decide)).trans (W3_arg3 m ρ c)

/-- Not written here: `main_arg4` keeps what it held. -/
theorem W4_arg4 : W4 m ρ c (Proc.devRef .tc main_arg4) = (x4 m c) :=
  (W4_of_ne m ρ c main_arg4 (by decide)).trans (W3_arg4 m ρ c)

/-- Not written here: `main_arg5` keeps what it held. -/
theorem W4_arg5 : W4 m ρ c (Proc.devRef .tc main_arg5) = (x5 m c) :=
  (W4_of_ne m ρ c main_arg5 (by decide)).trans (W3_arg5 m ρ c)

/-- Not written here: `main_arg6` keeps what it held. -/
theorem W4_arg6 : W4 m ρ c (Proc.devRef .tc main_arg6) = (x6 m c) :=
  (W4_of_ne m ρ c main_arg6 (by decide)).trans (W3_arg6 m ρ c)

/-- Not written here: `main_v1` keeps what it held. -/
theorem W4_v1 : W4 m ρ c (Proc.devRef .tc main_v1) = val_main_v1 (F := Ideal) (x7 m c) :=
  (W4_of_ne m ρ c main_v1 (by decide)).trans (W3_v1 m ρ c)

/-- Not written here: `main_v3` keeps what it held. -/
theorem W4_v3 : W4 m ρ c (Proc.devRef .tc main_v3) = val_main_v3 (F := Ideal) (x7 m c) :=
  (W4_of_ne m ρ c main_v3 (by decide)).trans (W3_v3 m ρ c)

/-- Not written here: `main_v16` keeps what it held. -/
theorem W4_v16 : W4 m ρ c (Proc.devRef .tc main_v16) = val_main_v45 (F := Ideal) (x7 m c) :=
  (W4_of_ne m ρ c main_v16 (by decide)).trans (W3_v16 m ρ c)

/-- Not written here: `main_v31` keeps what it held. -/
theorem W4_v31 : W4 m ρ c (Proc.devRef .tc main_v31) = val_main_v31 (F := Ideal) (x7 m c) :=
  (W4_of_ne m ρ c main_v31 (by decide)).trans (W3_v31 m ρ c)

/-! ## After the third region -/

/-- The third region leaves the product of the first layer's output by the second weights. -/
theorem W5_v49 : W5 m ρ c (Proc.devRef .tc main_v49) = val_main_v54 (F := Ideal) (x0 m c) (x1 m c) (x2 m c) (x3 m c) (x7 m c) := by
  refine (W5_arr m ρ c 2).trans ((Cert.KernelIdeal.SecondProduct.final (V4 m ρ) c).trans ?_)
  show Cert.Dense.matProd (M := 100000) (K := 64) (N := 64) (W4 m ρ c (Proc.devRef .tc main_v48)) (W4 m ρ c (Proc.devRef .tc main_arg3)) = _
  rw [W4_v48 m ρ c, W4_arg3 m ρ c]
  exact (Cert.ReferenceIdeal.RefValue.product2 (x0 m c) (x1 m c) (x2 m c) (x3 m c) (x7 m c)).symm

/-- Not written here: `main_arg4` keeps what it held. -/
theorem W5_arg4 : W5 m ρ c (Proc.devRef .tc main_arg4) = (x4 m c) :=
  (W5_of_ne m ρ c main_arg4 (by decide)).trans (W4_arg4 m ρ c)

/-- Not written here: `main_arg5` keeps what it held. -/
theorem W5_arg5 : W5 m ρ c (Proc.devRef .tc main_arg5) = (x5 m c) :=
  (W5_of_ne m ρ c main_arg5 (by decide)).trans (W4_arg5 m ρ c)

/-- Not written here: `main_arg6` keeps what it held. -/
theorem W5_arg6 : W5 m ρ c (Proc.devRef .tc main_arg6) = (x6 m c) :=
  (W5_of_ne m ρ c main_arg6 (by decide)).trans (W4_arg6 m ρ c)

/-- Not written here: `main_v1` keeps what it held. -/
theorem W5_v1 : W5 m ρ c (Proc.devRef .tc main_v1) = val_main_v1 (F := Ideal) (x7 m c) :=
  (W5_of_ne m ρ c main_v1 (by decide)).trans (W4_v1 m ρ c)

/-- Not written here: `main_v3` keeps what it held. -/
theorem W5_v3 : W5 m ρ c (Proc.devRef .tc main_v3) = val_main_v3 (F := Ideal) (x7 m c) :=
  (W5_of_ne m ρ c main_v3 (by decide)).trans (W4_v3 m ρ c)

/-- Not written here: `main_v16` keeps what it held. -/
theorem W5_v16 : W5 m ρ c (Proc.devRef .tc main_v16) = val_main_v45 (F := Ideal) (x7 m c) :=
  (W5_of_ne m ρ c main_v16 (by decide)).trans (W4_v16 m ρ c)

/-- Not written here: `main_v31` keeps what it held. -/
theorem W5_v31 : W5 m ρ c (Proc.devRef .tc main_v31) = val_main_v31 (F := Ideal) (x7 m c) :=
  (W5_of_ne m ρ c main_v31 (by decide)).trans (W4_v31 m ρ c)

/-! ## After the third stretch of host operations -/

set_option maxHeartbeats 4000000 in
/-- The second layer's neighbour sums. -/
theorem W6_v62 : W6 m ρ c (Proc.devRef .tc main_v62) = val_main_v94 (F := Ideal) (x0 m c) (x1 m c) (x2 m c) (x3 m c) (x7 m c) := by
  show StableHlo.after hostOps3 (W5 m ρ c) (Proc.devRef .tc main_v62) = _
  after_results_simp
  rw [W5_v3 m ρ c, W5_v49 m ρ c, W5_v1 m ρ c, W5_v31 m ρ c]
  rfl

set_option maxHeartbeats 4000000 in
/-- Not written here: `main_v49` keeps what it held. -/
theorem W6_v49 : W6 m ρ c (Proc.devRef .tc main_v49) = val_main_v54 (F := Ideal) (x0 m c) (x1 m c) (x2 m c) (x3 m c) (x7 m c) := by
  show StableHlo.after hostOps3 (W5 m ρ c) (Proc.devRef .tc main_v49) = _
  after_results_simp
  exact W5_v49 m ρ c

set_option maxHeartbeats 4000000 in
/-- The squared inverse roots as a column, again. -/
theorem W6_v63 : W6 m ρ c (Proc.devRef .tc main_v63) = shapeCast (⟨2, ![100000, 1]⟩ : Shape) (val_main_v95 (F := Ideal) (x7 m c)) shapeCasts_S100000_S100000x1 := by
  show StableHlo.after hostOps3 (W5 m ρ c) (Proc.devRef .tc main_v63) = _
  after_results_simp
  rw [W5_v16 m ρ c]
  rfl

set_option maxHeartbeats 4000000 in
/-- The second bias as a row. -/
theorem W6_v64 : W6 m ρ c (Proc.devRef .tc main_v64) = shapeCast (⟨2, ![1, 64]⟩ : Shape) (x4 m c) shapeCasts_S64_S1x64 := by
  show StableHlo.after hostOps3 (W5 m ρ c) (Proc.devRef .tc main_v64) = _
  after_results_simp
  rw [W5_arg4 m ρ c]
  rfl

set_option maxHeartbeats 4000000 in
/-- Not written here: `main_arg5` keeps what it held. -/
theorem W6_arg5 : W6 m ρ c (Proc.devRef .tc main_arg5) = (x5 m c) := by
  show StableHlo.after hostOps3 (W5 m ρ c) (Proc.devRef .tc main_arg5) = _
  after_results_simp
  exact W5_arg5 m ρ c

set_option maxHeartbeats 4000000 in
/-- Not written here: `main_arg6` keeps what it held. -/
theorem W6_arg6 : W6 m ρ c (Proc.devRef .tc main_arg6) = (x6 m c) := by
  show StableHlo.after hostOps3 (W5 m ρ c) (Proc.devRef .tc main_arg6) = _
  after_results_simp
  exact W5_arg6 m ρ c

end Cert.KernelIdeal.Chain

end
-- ==== Proof.SecondCombine.lean ====
/-
  The fourth region: the second layer's neighbour sums combined with the self term and the bias.

  The region walks ten blocks of 10000 rows. At each block the body reads the block of the neighbour sums A, the block of the
  node's own rows X, the block of the per-node factors (a column) and the bias (a row), and writes
  max(A + X·factor + bias, 0) for the block. Each entry depends on its own row and column only, so block t of the
  result is block t of the whole combined array; the ten blocks cover all rows.
-/
import proofs.«125561_j64424509440202_1_alg».proof.Proof.Gen.KernelIdeal.Frame
import proofs.«125561_j64424509440202_1_alg».proof.Proof.LibCombine
import Idealize.ShloMosaic.Lib.Pipeline.Value
import Idealize.ShloMosaic.Lib.ValueIdx

set_option maxRecDepth 16384

noncomputable section

namespace Cert.KernelIdeal.SecondCombine

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The four arrays the region finds at entry: neighbour sums, own rows, per-node factors (a column), bias (a row). -/
abbrev inA (c : Dev nD) : S100000x64.Idx → EReal := V c (Pipeline.arrRef spec3 0)
abbrev inX (c : Dev nD) : S100000x64.Idx → EReal := V c (Pipeline.arrRef spec3 1)
abbrev inD (c : Dev nD) : S100000x1.Idx → EReal := V c (Pipeline.arrRef spec3 2)
abbrev inB (c : Dev nD) : S1x64.Idx → EReal := V c (Pipeline.arrRef spec3 3)

theorem hz : (![0, 0] : Fin 2 → Nat) = fun _ => 0 := funext fun a => by fin_cases a <;> rfl

/-- The body's value on a block: the combining step of the block's rows. -/
theorem pay_eq (x0 x1 : Vec Ideal S10000x64 .f32) (x2 : Vec Ideal S10000x1 .f32) (x3 : Vec Ideal S1x64 .f32) :
    k3_pay1 (F := Ideal) x0 x1 x2 x3 = Cert.Combine.combineCR (M := 10000) (K := 64) x0 x1 x2 x3 := by
  unfold k3_pay1
  simp only [shapeCast_self]
  exact Cert.Combine.blockCombine_eq (M := 10000) (K := 64) x0 x1 x2 x3 _ _

/-- Where each window's block sits at grid point t: the row blocks move with t, the bias row stays. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of rows of the whole combined array. -/
theorem flushed_eq (c : Dev nD) (t : Fin cfg3.N) :
    (dat3 V c).flushed 4 t = ((cfg3.win 4).blk t).view.read (Elt Ideal)
      (Cert.Combine.combineCR (M := 100000) (K := 64) (inA V c) (inX V c)
        (inD V c) (inB V c)) := by
  show (cfg3.win 4).cut (grid3.coords t) ((dat3 V c).after 4 t) = _
  rw [after3_4]
  unfold out3_4
  rw [View.canon_unit_zero hz]
  simp only [View.ld_unit_zero (S := S10000x64) hz, View.ld_unit_zero (S := S10000x1) hz, View.ld_unit_zero (S := S1x64) hz]
  rw [pay_eq]
  obtain ⟨e0, e1, e2, e3, e4, e5, e6, e7, e8, e9⟩ := idx_facts t
  have hN : grid3.N = 10 := N_3
  have ht : t.val < 10 := (show t.val < grid3.N from t.isLt).trans_eq hN
  funext j
  obtain ⟨p, q, rfl⟩ : ∃ (p : Fin 10000) (q : Fin 64), j = ix2 p q := ⟨j 0, j 1, eq_ix2 j⟩
  have hp : p.val < 10000 := p.isLt
  have hr : t.val * 10000 + p.val < 100000 := by omega
  have hemb : ((cfg3.win 4).blk t).view.emb (ix2 p q) = ix2 (⟨t.val * 10000 + p.val, hr⟩ : Fin 100000) q := by
    funext a; apply Fin.ext
    match a with
    | ⟨0, _⟩ => show win3_4.index t (0 : Fin 2) * 10000 + 1 * p.val = t.val * 10000 + p.val; omega
    | ⟨1, _⟩ => show win3_4.index t (1 : Fin 2) * 64 + 1 * q.val = q.val; omega
  have h0 : ((cfg3.win 0).blk t).view.emb (ix2 p q) = ix2 (⟨t.val * 10000 + p.val, hr⟩ : Fin 100000) q := by
    funext a; apply Fin.ext
    match a with
    | ⟨0, _⟩ => show win3_0.index t (0 : Fin 2) * 10000 + 1 * p.val = t.val * 10000 + p.val; omega
    | ⟨1, _⟩ => show win3_0.index t (1 : Fin 2) * 64 + 1 * q.val = q.val; omega
  have h1 : ((cfg3.win 1).blk t).view.emb (ix2 p q) = ix2 (⟨t.val * 10000 + p.val, hr⟩ : Fin 100000) q := by
    funext a; apply Fin.ext
    match a with
    | ⟨0, _⟩ => show win3_1.index t (0 : Fin 2) * 10000 + 1 * p.val = t.val * 10000 + p.val; omega
    | ⟨1, _⟩ => show win3_1.index t (1 : Fin 2) * 64 + 1 * q.val = q.val; omega
  have h2 : ((cfg3.win 2).blk t).view.emb (ix2 p (0 : Fin 1)) = ix2 (⟨t.val * 10000 + p.val, hr⟩ : Fin 100000) (0 : Fin 1) := by
    funext a; apply Fin.ext
    match a with
    | ⟨0, _⟩ => show win3_2.index t (0 : Fin 2) * 10000 + 1 * p.val = t.val * 10000 + p.val; omega
    | ⟨1, _⟩ => show win3_2.index t (1 : Fin 2) * 1 + 1 * 0 = 0; omega
  have h3 : ((cfg3.win 3).blk t).view.emb (ix2 (0 : Fin 1) q) = ix2 (0 : Fin 1) q := by
    funext a; apply Fin.ext
    match a with
    | ⟨0, _⟩ => show win3_3.index t (0 : Fin 2) * 1 + 1 * 0 = 0; omega
    | ⟨1, _⟩ => show win3_3.index t (1 : Fin 2) * 64 + 1 * q.val = q.val; omega
  show Cert.Combine.combineCR (M := 10000) (K := 64) (iblk3 V c 0 t) (iblk3 V c 1 t) (iblk3 V c 2 t) (iblk3 V c 3 t) (ix2 p q)
    = Cert.Combine.combineCR (M := 100000) (K := 64) (inA V c) (inX V c)
        (inD V c) (inB V c) (((cfg3.win 4).blk t).view.emb (ix2 p q))
  rw [hemb, Cert.Combine.combineCR_apply, Cert.Combine.combineCR_apply]
  show max (inA V c (((cfg3.win 0).blk t).view.emb (ix2 p q))
        + inX V c (((cfg3.win 1).blk t).view.emb (ix2 p q))
          * inD V c (((cfg3.win 2).blk t).view.emb (ix2 p (0 : Fin 1)))
        + inB V c (((cfg3.win 3).blk t).view.emb (ix2 (0 : Fin 1) q))) Cert.Combine.zeroWord = _
  rw [h0, h1, h2, h3]

/-- An index of the array is in point t's block iff each coordinate is in the block's range on its axis. -/
theorem mem_blk (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v65).slice (win3_4.rect t)).set ↔ _
  rw [View.set_slice_whole, Rect.mem_set_unit]
  exact Iff.rfl

/-- Every row lies in the block of the point numbered by its quotient by 10000. -/
theorem cover (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : grid3.N = 10 := N_3
  have hlt : (i 0).val / 10000 < cfg3.N := by show _ < grid3.N; omega
  obtain ⟨e0, e1, e2, e3, e4, e5, e6, e7, e8, e9⟩ := idx_facts ⟨(i 0).val / 10000, hlt⟩
  refine ⟨⟨(i 0).val / 10000, hlt⟩, flush3_4 _, ?_⟩
  rw [mem_blk]
  intro a
  match a with
  | ⟨0, _⟩ =>
    show win3_4.index ⟨(i 0).val / 10000, hlt⟩ (0 : Fin 2) * 10000 ≤ (i 0).val ∧ (i 0).val < win3_4.index ⟨(i 0).val / 10000, hlt⟩ (0 : Fin 2) * 10000 + 10000
    rw [e8]; show (i 0).val / 10000 * 10000 ≤ (i 0).val ∧ (i 0).val < (i 0).val / 10000 * 10000 + 10000; omega
  | ⟨1, _⟩ =>
    show win3_4.index ⟨(i 0).val / 10000, hlt⟩ (1 : Fin 2) * 64 ≤ (i 1).val ∧ (i 1).val < win3_4.index ⟨(i 0).val / 10000, hlt⟩ (1 : Fin 2) * 64 + 64
    rw [e9]; omega

/-- The array the region leaves: the combining step of the four arrays it found at entry. -/
theorem final (c : Dev nD) :
    (dat3 V c).arrAt 4 cfg3.N
      = Cert.Combine.combineCR (M := 100000) (K := 64) (inA V c) (inX V c)
          (inD V c) (inB V c) :=
  (dat3 V c).arrAt_eq_of_cover 4 _ (fun t _ => flushed_eq V c t) cover

end Cert.KernelIdeal.SecondCombine

end
-- ==== Proof.OutputLayer.lean ====
/-
  The last region: the output layer and its row softmax.

  The region walks ten blocks of 10000 rows. At each block the body multiplies the block of hidden rows by the output
  weights into a zero accumulator, adds the bias row, and writes that block of logits; then takes each row's maximum,
  subtracts it, exponentiates, divides by the row's sum, and writes the block of probabilities. Both results at row r
  depend on row r of the hidden array only, so block t of each result is block t of the whole-array function; the ten
  blocks cover all rows. (Changes of float format are the identity on the extended reals.)
-/
import proofs.«125561_j64424509440202_1_alg».proof.Proof.Gen.KernelIdeal.Frame
import proofs.«125561_j64424509440202_1_alg».proof.Proof.LibRowwise
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember

set_option maxRecDepth 16384

noncomputable section

namespace Cert.KernelIdeal.OutputLayer

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

open Cert.Rowwise Cert.Softmax

variable (V : (c : Dev nD) → (b : Ref sig .tc) → Buf (Elt Ideal) ((c : Thread nD τ).loc b))

/-- The three arrays the region finds at entry: hidden rows, output weights, bias (a row). -/
abbrev inH (c : Dev nD) : S100000x64.Idx → EReal := V c (Pipeline.arrRef spec4 0)
abbrev inW (c : Dev nD) : S64x16.Idx → EReal := V c (Pipeline.arrRef spec4 1)
abbrev inB (c : Dev nD) : S1x16.Idx → EReal := V c (Pipeline.arrRef spec4 2)

theorem hz : (![0, 0] : Fin 2 → Nat) = fun _ => 0 := funext fun a => by fin_cases a <;> rfl

/-- The first stored value on a block of rows: the block's logits. -/
theorem pay1_eq (x0 : Vec Ideal S10000x64 .f32) (x1 : Vec Ideal S64x16 .f32) (x2 : Vec Ideal S1x16 .f32) :
    k4_pay1 (F := Ideal) x0 x1 x2 = affine (M := 10000) (K := 64) (N := 16) x0 x1 x2 := by
  funext i
  obtain ⟨r, q, rfl⟩ : ∃ (r : Fin 10000) (q : Fin 16), i = ix2 r q := ⟨i 0, i 1, eq_ix2 i⟩
  unfold k4_pay1
  simp only [shapeCast_self]
  have hd : dot_S10000x64_S64x16_S10000x16_1_0_0_1_n_n = DotDims.plain 10000 64 16 := rfl
  rw [addf_apply, matmul_zero_eq_dotGeneral, hd, StackMember.dotGeneral_plain_apply, broadcastTo_1b_ab_apply, affine_apply]
  rfl

/-- The second stored value on a block of rows: the row softmax of the block's logits. -/
theorem pay2_eq (x0 : Vec Ideal S10000x64 .f32) (x1 : Vec Ideal S64x16 .f32) (x2 : Vec Ideal S1x16 .f32) :
    k4_pay2 (F := Ideal) x0 x1 x2 = softmax (affine (M := 10000) (K := 64) (N := 16) x0 x1 x2) := by
  unfold k4_pay2
  rw [pay1_eq]
  exact blockSoftmax_eq (M := 10000) (K := 16) _ _ _ _ _ _ _

/-- Where each window's block sits at grid point t: the row blocks move with t, weights and bias stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- A logit of the block at point t is the logit of the whole arrays at the block's row. -/
theorem logit_blk (c : Dev nD) (t : Fin cfg4.N) (p : Fin 10000) (q : Fin 16) (hr : t.val * 10000 + p.val < 100000) :
    affine (M := 10000) (K := 64) (N := 16) (iblk4 V c 0 t) (iblk4 V c 1 t) (iblk4 V c 2 t) (ix2 p q)
      = affine (M := 100000) (K := 64) (N := 16) (inH V c) (inW V c) (inB V c)
          (ix2 (⟨t.val * 10000 + p.val, hr⟩ : Fin 100000) q) := by
  obtain ⟨e0, e1, e2, e3, e4, e5, e6, e7, e8, e9⟩ := idx_facts t
  rw [affine_apply, affine_apply]
  have h2 : ((cfg4.win 2).blk t).view.emb (ix2 (0 : Fin 1) q) = ix2 (0 : Fin 1) q := by
    funext a; apply Fin.ext
    match a with
    | ⟨0, _⟩ => show win4_2.index t (0 : Fin 2) * 1 + 1 * 0 = 0; omega
    | ⟨1, _⟩ => show win4_2.index t (1 : Fin 2) * 16 + 1 * q.val = q.val; omega
  have hB : iblk4 V c 2 t (ix2 (0 : Fin 1) q) = inB V c (ix2 (0 : Fin 1) q) := by
    show inB V c (((cfg4.win 2).blk t).view.emb (ix2 (0 : Fin 1) q)) = _
    rw [h2]
  rw [hB]
  congr 1
  refine Finset.sum_congr rfl fun kk _ => ?_
  have h0 : ((cfg4.win 0).blk t).view.emb (ix2 p kk) = ix2 (⟨t.val * 10000 + p.val, hr⟩ : Fin 100000) kk := by
    funext a; apply Fin.ext
    match a with
    | ⟨0, _⟩ => show win4_0.index t (0 : Fin 2) * 10000 + 1 * p.val = t.val * 10000 + p.val; omega
    | ⟨1, _⟩ => show win4_0.index t (1 : Fin 2) * 64 + 1 * kk.val = kk.val; omega
  have h1 : ((cfg4.win 1).blk t).view.emb (ix2 kk q) = ix2 kk q := by
    funext a; apply Fin.ext
    match a with
    | ⟨0, _⟩ => show win4_1.index t (0 : Fin 2) * 64 + 1 * kk.val = kk.val; omega
    | ⟨1, _⟩ => show win4_1.index t (1 : Fin 2) * 16 + 1 * q.val = q.val; omega
  show inH V c (((cfg4.win 0).blk t).view.emb (ix2 p kk)) * inW V c (((cfg4.win 1).blk t).view.emb (ix2 kk q)) = _
  rw [h0, h1]

/-- What point t writes back to the logits is block t of rows of the whole logits. -/
theorem flushed3_eq (c : Dev nD) (t : Fin cfg4.N) :
    (dat4 V c).flushed 3 t = ((cfg4.win 3).blk t).view.read (Elt Ideal)
      (affine (M := 100000) (K := 64) (N := 16) (inH V c) (inW V c) (inB V c)) := by
  show (cfg4.win 3).cut (grid4.coords t) ((dat4 V c).after 3 t) = _
  rw [after4_3]
  unfold out4_3
  rw [View.canon_unit_zero hz]
  simp only [View.ld_unit_zero (S := S10000x64) hz, View.ld_unit_zero (S := S64x16) hz, View.ld_unit_zero (S := S1x16) hz]
  rw [pay1_eq]
  obtain ⟨e0, e1, e2, e3, e4, e5, e6, e7, e8, e9⟩ := idx_facts t
  have hN : grid4.N = 10 := N_4
  have ht : t.val < 10 := (show t.val < grid4.N from t.isLt).trans_eq hN
  funext j
  obtain ⟨p, q, rfl⟩ : ∃ (p : Fin 10000) (q : Fin 16), j = ix2 p q := ⟨j 0, j 1, eq_ix2 j⟩
  have hp : p.val < 10000 := p.isLt
  have hr : t.val * 10000 + p.val < 100000 := by omega
  have hemb : ((cfg4.win 3).blk t).view.emb (ix2 p q) = ix2 (⟨t.val * 10000 + p.val, hr⟩ : Fin 100000) q := by
    funext a; apply Fin.ext
    match a with
    | ⟨0, _⟩ => show win4_3.index t (0 : Fin 2) * 10000 + 1 * p.val = t.val * 10000 + p.val; omega
    | ⟨1, _⟩ => show win4_3.index t (1 : Fin 2) * 16 + 1 * q.val = q.val; omega
  show affine (M := 10000) (K := 64) (N := 16) (iblk4 V c 0 t) (iblk4 V c 1 t) (iblk4 V c 2 t) (ix2 p q)
    = affine (M := 100000) (K := 64) (N := 16) (inH V c) (inW V c) (inB V c)
        (((cfg4.win 3).blk t).view.emb (ix2 p q))
  rw [hemb]
  exact logit_blk V c t p q hr

/-- What point t writes back to the probabilities is block t of rows of the whole row softmax. -/
theorem flushed4_eq (c : Dev nD) (t : Fin cfg4.N) :
    (dat4 V c).flushed 4 t = ((cfg4.win 4).blk t).view.read (Elt Ideal)
      (softmax (affine (M := 100000) (K := 64) (N := 16) (inH V c) (inW V c) (inB V c))) := by
  show (cfg4.win 4).cut (grid4.coords t) ((dat4 V c).after 4 t) = _
  rw [after4_4]
  unfold out4_4
  rw [View.canon_unit_zero hz]
  simp only [View.ld_unit_zero (S := S10000x64) hz, View.ld_unit_zero (S := S64x16) hz, View.ld_unit_zero (S := S1x16) hz]
  rw [pay2_eq]
  obtain ⟨e0, e1, e2, e3, e4, e5, e6, e7, e8, e9⟩ := idx_facts t
  have hN : grid4.N = 10 := N_4
  have ht : t.val < 10 := (show t.val < grid4.N from t.isLt).trans_eq hN
  funext j
  obtain ⟨p, q, rfl⟩ : ∃ (p : Fin 10000) (q : Fin 16), j = ix2 p q := ⟨j 0, j 1, eq_ix2 j⟩
  have hp : p.val < 10000 := p.isLt
  have hr : t.val * 10000 + p.val < 100000 := by omega
  have hemb : ((cfg4.win 4).blk t).view.emb (ix2 p q) = ix2 (⟨t.val * 10000 + p.val, hr⟩ : Fin 100000) q := by
    funext a; apply Fin.ext
    match a with
    | ⟨0, _⟩ => show win4_4.index t (0 : Fin 2) * 10000 + 1 * p.val = t.val * 10000 + p.val; omega
    | ⟨1, _⟩ => show win4_4.index t (1 : Fin 2) * 16 + 1 * q.val = q.val; omega
  show softmax (affine (M := 10000) (K := 64) (N := 16) (iblk4 V c 0 t) (iblk4 V c 1 t) (iblk4 V c 2 t)) (ix2 p q)
    = softmax (affine (M := 100000) (K := 64) (N := 16) (inH V c) (inW V c) (inB V c))
        (((cfg4.win 4).blk t).view.emb (ix2 p q))
  rw [hemb]
  exact softmax_row_congr _ _ p ⟨t.val * 10000 + p.val, hr⟩ (fun k => logit_blk V c t p k hr) q

/-- An index of the logits is in point t's block iff each coordinate is in the block's range on its axis. -/
theorem mem_blk3 (t : Fin cfg4.N) (i : S100000x16.Idx) :
    i ∈ ((cfg4.win 3).blk t).view.set ↔ ∀ a : Fin 2, win4_3.index t a * S10000x16.size a ≤ (i a).val ∧ (i a).val < win4_3.index t a * S10000x16.size a + S10000x16.size a := by
  show i ∈ ((View.whole main_v67_0).slice (win4_3.rect t)).set ↔ _
  rw [View.set_slice_whole, Rect.mem_set_unit]
  exact Iff.rfl

/-- The same for the probabilities. -/
theorem mem_blk4 (t : Fin cfg4.N) (i : S100000x16.Idx) :
    i ∈ ((cfg4.win 4).blk t).view.set ↔ ∀ a : Fin 2, win4_4.index t a * S10000x16.size a ≤ (i a).val ∧ (i a).val < win4_4.index t a * S10000x16.size a + S10000x16.size a := by
  show i ∈ ((View.whole main_v67_1).slice (win4_4.rect t)).set ↔ _
  rw [View.set_slice_whole, Rect.mem_set_unit]
  exact Iff.rfl

/-- Every row of the logits lies in the block of the point numbered by its quotient by 10000. -/
theorem cover3 (i : S100000x16.Idx) :
    ∃ t : Fin cfg4.N, (cfg4.win 3).flush t = true ∧ i ∈ ((cfg4.win 3).blk t).view.set := by
  have hi0 : (i 0).val < 100000 := (i 0).isLt
  have hi1 : (i 1).val < 16 := (i 1).isLt
  have hN : grid4.N = 10 := N_4
  have hlt : (i 0).val / 10000 < cfg4.N := by show _ < grid4.N; omega
  obtain ⟨e0, e1, e2, e3, e4, e5, e6, e7, e8, e9⟩ := idx_facts ⟨(i 0).val / 10000, hlt⟩
  refine ⟨⟨(i 0).val / 10000, hlt⟩, flush4_3 _, ?_⟩
  rw [mem_blk3]
  intro a
  match a with
  | ⟨0, _⟩ =>
    show win4_3.index ⟨(i 0).val / 10000, hlt⟩ (0 : Fin 2) * 10000 ≤ (i 0).val ∧ (i 0).val < win4_3.index ⟨(i 0).val / 10000, hlt⟩ (0 : Fin 2) * 10000 + 10000
    rw [e6]; show (i 0).val / 10000 * 10000 ≤ (i 0).val ∧ (i 0).val < (i 0).val / 10000 * 10000 + 10000; omega
  | ⟨1, _⟩ =>
    show win4_3.index ⟨(i 0).val / 10000, hlt⟩ (1 : Fin 2) * 16 ≤ (i 1).val ∧ (i 1).val < win4_3.index ⟨(i 0).val / 10000, hlt⟩ (1 : Fin 2) * 16 + 16
    rw [e7]; omega

/-- The same for the probabilities. -/
theorem cover4 (i : S100000x16.Idx) :
    ∃ t : Fin cfg4.N, (cfg4.win 4).flush t = true ∧ i ∈ ((cfg4.win 4).blk t).view.set := by
  have hi0 : (i 0).val < 100000 := (i 0).isLt
  have hi1 : (i 1).val < 16 := (i 1).isLt
  have hN : grid4.N = 10 := N_4
  have hlt : (i 0).val / 10000 < cfg4.N := by show _ < grid4.N; omega
  obtain ⟨e0, e1, e2, e3, e4, e5, e6, e7, e8, e9⟩ := idx_facts ⟨(i 0).val / 10000, hlt⟩
  refine ⟨⟨(i 0).val / 10000, hlt⟩, flush4_4 _, ?_⟩
  rw [mem_blk4]
  intro a
  match a with
  | ⟨0, _⟩ =>
    show win4_4.index ⟨(i 0).val / 10000, hlt⟩ (0 : Fin 2) * 10000 ≤ (i 0).val ∧ (i 0).val < win4_4.index ⟨(i 0).val / 10000, hlt⟩ (0 : Fin 2) * 10000 + 10000
    rw [e8]; show (i 0).val / 10000 * 10000 ≤ (i 0).val ∧ (i 0).val < (i 0).val / 10000 * 10000 + 10000; omega
  | ⟨1, _⟩ =>
    show win4_4.index ⟨(i 0).val / 10000, hlt⟩ (1 : Fin 2) * 16 ≤ (i 1).val ∧ (i 1).val < win4_4.index ⟨(i 0).val / 10000, hlt⟩ (1 : Fin 2) * 16 + 16
    rw [e9]; omega

/-- The logits the region leaves: the dense layer of the three arrays it found at entry. -/
theorem final_logits (c : Dev nD) :
    (dat4 V c).arrAt 3 cfg4.N
      = affine (M := 100000) (K := 64) (N := 16) (inH V c) (inW V c) (inB V c) :=
  (dat4 V c).arrAt_eq_of_cover 3 _ (fun t _ => flushed3_eq V c t) cover3

/-- The probabilities the region leaves: the row softmax of those logits. -/
theorem final_probs (c : Dev nD) :
    (dat4 V c).arrAt 4 cfg4.N
      = softmax (affine (M := 100000) (K := 64) (N := 16) (inH V c) (inW V c) (inB V c)) :=
  (dat4 V c).arrAt_eq_of_cover 4 _ (fun t _ => flushed4_eq V c t) cover4

end Cert.KernelIdeal.OutputLayer

end
-- ==== Proof.ChainC.lean ====
/-
  The idealized kernel's buffers, boundary by boundary: from the fourth region to the end.

  The fourth region combines the second layer's neighbour sums, its product, the column and the second bias row into the
  second layer's output. The host lays out the output bias as a row. The last region writes the logits (that output times
  the output weights plus the bias) and their row softmax. Both are the reference program's results at the same argument
  arrays.
-/
import proofs.«125561_j64424509440202_1_alg».proof.Proof.ChainB
import proofs.«125561_j64424509440202_1_alg».proof.Proof.SecondCombine
import proofs.«125561_j64424509440202_1_alg».proof.Proof.OutputLayer

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Read (val_main_v1 val_main_v3 val_main_v4 val_main_v31 val_main_v44 val_main_v45 val_main_v53 val_main_v54 val_main_v94 val_main_v95 val_main_v103 val_main_v107 val_main_v118)

variable (m : (ℓ : Loc nD τ sig) → Buf (Elt Ideal) ℓ) (ρ : Dev nD → PrngReg) (c : Dev nD)

/-! ## After the fourth region -/

/-- The fourth region leaves the second layer's output. -/
theorem W7_v65 : W7 m ρ c (Proc.devRef .tc main_v65) = val_main_v103 (F := Ideal) (x0 m c) (x1 m c) (x2 m c) (x3 m c) (x4 m c) (x7 m c) := by
  refine (W7_arr m ρ c 4).trans ((Cert.KernelIdeal.SecondCombine.final (V6 m ρ) c).trans ?_)
  show Cert.Combine.combineCR (M := 100000) (K := 64) (W6 m ρ c (Proc.devRef .tc main_v62)) (W6 m ρ c (Proc.devRef .tc main_v49)) (W6 m ρ c (Proc.devRef .tc main_v63)) (W6 m ρ c (Proc.devRef .tc main_v64)) = _
  rw [W6_v62 m ρ c, W6_v49 m ρ c, W6_v63 m ρ c, W6_v64 m ρ c]
  exact (Cert.Combine.combineCR_casts _ _ _ _ _ _).trans (Cert.ReferenceIdeal.RefValue.layer2 (x0 m c) (x1 m c) (x2 m c) (x3 m c) (x4 m c) (x7 m c)).symm

/-- Not written here: `main_arg5` keeps what it held. -/
theorem W7_arg5 : W7 m ρ c (Proc.devRef .tc main_arg5) = (x5 m c) :=
  (W7_of_ne m ρ c main_arg5 (by decide)).trans (W6_arg5 m ρ c)

/-- Not written here: `main_arg6` keeps what it held. -/
theorem W7_arg6 : W7 m ρ c (Proc.devRef .tc main_arg6) = (x6 m c) :=
  (W7_of_ne m ρ c main_arg6 (by decide)).trans (W6_arg6 m ρ c)

/-! ## After the last stretch of host operations -/

set_option maxHeartbeats 4000000 in
/-- Not written here: `main_v65` keeps what it held. -/
theorem W8_v65 : W8 m ρ c (Proc.devRef .tc main_v65) = val_main_v103 (F := Ideal) (x0 m c) (x1 m c) (x2 m c) (x3 m c) (x4 m c) (x7 m c) := by
  show StableHlo.after hostOps4 (W7 m ρ c) (Proc.devRef .tc main_v65) = _
  after_results_simp
  exact W7_v65 m ρ c

set_option maxHeartbeats 4000000 in
/-- Not written here: `main_arg5` keeps what it held. -/
theorem W8_arg5 : W8 m ρ c (Proc.devRef .tc main_arg5) = (x5 m c) := by
  show StableHlo.after hostOps4 (W7 m ρ c) (Proc.devRef .tc main_arg5) = _
  after_results_simp
  exact W7_arg5 m ρ c

set_option maxHeartbeats 4000000 in
/-- The output bias as a row. -/
theorem W8_v66 : W8 m ρ c (Proc.devRef .tc main_v66) = shapeCast (⟨2, ![1, 16]⟩ : Shape) (x6 m c) shapeCasts_S16_S1x16 := by
  show StableHlo.after hostOps4 (W7 m ρ c) (Proc.devRef .tc main_v66) = _
  after_results_simp
  rw [W7_arg6 m ρ c]
  rfl

/-! ## After the last region: the two results -/

/-- The logits. -/
theorem W9_logits : W9 m ρ c (Proc.devRef .tc main_v67_0) = val_main_v107 (F := Ideal) (x0 m c) (x1 m c) (x2 m c) (x3 m c) (x4 m c) (x5 m c) (x6 m c) (x7 m c) := by
  refine (W9_arr m ρ c 3).trans ((Cert.KernelIdeal.OutputLayer.final_logits (V8 m ρ) c).trans ?_)
  show Cert.Rowwise.affine (M := 100000) (K := 64) (N := 16) (W8 m ρ c (Proc.devRef .tc main_v65)) (W8 m ρ c (Proc.devRef .tc main_arg5)) (W8 m ρ c (Proc.devRef .tc main_v66)) = _
  rw [W8_v65 m ρ c, W8_arg5 m ρ c, W8_v66 m ρ c]
  exact (Cert.ReferenceIdeal.RefValue.logits (x0 m c) (x1 m c) (x2 m c) (x3 m c) (x4 m c) (x5 m c) (x6 m c) (x7 m c) _).symm

/-- The probabilities. -/
theorem W9_probs : W9 m ρ c (Proc.devRef .tc main_v67_1) = val_main_v118 (F := Ideal) (x0 m c) (x1 m c) (x2 m c) (x3 m c) (x4 m c) (x5 m c) (x6 m c) (x7 m c) := by
  refine (W9_arr m ρ c 4).trans ((Cert.KernelIdeal.OutputLayer.final_probs (V8 m ρ) c).trans ?_)
  show Cert.Softmax.softmax (Cert.Rowwise.affine (M := 100000) (K := 64) (N := 16) (W8 m ρ c (Proc.devRef .tc main_v65)) (W8 m ρ c (Proc.devRef .tc main_arg5)) (W8 m ρ c (Proc.devRef .tc main_v66))) = _
  rw [W8_v65 m ρ c, W8_arg5 m ρ c, W8_v66 m ρ c]
  exact ((congrArg (Cert.Softmax.softmax (M := 100000) (K := 16)) (Cert.ReferenceIdeal.RefValue.logits (x0 m c) (x1 m c) (x2 m c) (x3 m c) (x4 m c) (x5 m c) (x6 m c) (x7 m c) _)).symm).trans
    (Cert.ReferenceIdeal.RefValue.probs (x0 m c) (x1 m c) (x2 m c) (x3 m c) (x4 m c) (x5 m c) (x6 m c) (x7 m c)).symm

end Cert.KernelIdeal.Chain

end
-- ==== Proof.lean ====
/-
  A two-layer graph convolution network with a softmax output, tiled, against its whole-array reference.

  Both programs compute, from node features X, an edge list, and the weights and biases of three layers:
  the inverse square root d of each node's degree plus one; for each of two layers the product of the layer's input by its
  weights, the sum over incoming edges of the source's product row scaled by the two endpoints' d, that sum plus the node's
  own product row scaled by d·d plus the bias, and the positive part; then the logits (the second layer's output times the
  output weights plus the output bias) and their row softmax. The kernel program does the degree arithmetic once and the
  reference once per layer, with the same operations on the same edge list, so the values are the same terms. The kernel
  program runs the three products, the two combining steps and the softmax as five tiled regions over blocks of 10000
  rows; each entry of those results depends on its own row only, so the blocks assemble to the whole-array functions.
  At the extended reals the two programs are the same expression grouped the same way: the only laws used are 0 + s = s for
  the zero accumulators and initial values, and max(−∞, y) = y; no precondition on the inputs is needed for the values.
  The three frames are the generated ones (the reference's is its generated run with the results dropped); the
  idealization rewrote nothing, so it is preserved trivially.
-/
import proofs.«125561_j64424509440202_1_alg».proof.Defs
import proofs.«125561_j64424509440202_1_alg».proof.Proof.Gen.Kernel
import proofs.«125561_j64424509440202_1_alg».proof.Proof.Gen.Kernel.Skeleton
import proofs.«125561_j64424509440202_1_alg».proof.Proof.Gen.Kernel.Launch
import proofs.«125561_j64424509440202_1_alg».proof.Proof.Gen.Kernel.Points
import proofs.«125561_j64424509440202_1_alg».proof.Proof.Gen.Kernel.Frame
import proofs.«125561_j64424509440202_1_alg».proof.Proof.Gen.KernelIdeal
import proofs.«125561_j64424509440202_1_alg».proof.Proof.Gen.KernelIdeal.Skeleton
import proofs.«125561_j64424509440202_1_alg».proof.Proof.Gen.KernelIdeal.Launch
import proofs.«125561_j64424509440202_1_alg».proof.Proof.Gen.KernelIdeal.Points
import proofs.«125561_j64424509440202_1_alg».proof.Proof.Gen.KernelIdeal.Frame
import proofs.«125561_j64424509440202_1_alg».proof.Proof.Gen.ReferenceIdeal
import proofs.«125561_j64424509440202_1_alg».proof.Proof.Gen.ReferenceIdeal.Run
import proofs.«125561_j64424509440202_1_alg».proof.Proof.Gen.ReferenceIdeal.Read
import proofs.«125561_j64424509440202_1_alg».proof.Proof.Gen.Pre_finite_inputs
import proofs.«125561_j64424509440202_1_alg».proof.Proof.KernelRun
import proofs.«125561_j64424509440202_1_alg».proof.Proof.ChainC
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the logits and the probabilities at the reference's
    stages of those names, applied to the kernel program's argument arrays. -/
theorem algebraic : Cert.algebraic_KernelIdeal_ReferenceIdeal := by
  intro m ρ m' ρ' _ hagree
  refine ⟨fun c => Cert.ReferenceIdeal.Read.val_main_v107 (F := Ideal) (Cert.KernelIdeal.Chain.x0 m c) (Cert.KernelIdeal.Chain.x1 m c) (Cert.KernelIdeal.Chain.x2 m c) (Cert.KernelIdeal.Chain.x3 m c) (Cert.KernelIdeal.Chain.x4 m c) (Cert.KernelIdeal.Chain.x5 m c) (Cert.KernelIdeal.Chain.x6 m c) (Cert.KernelIdeal.Chain.x7 m c),
    fun c => Cert.ReferenceIdeal.Read.val_main_v118 (F := Ideal) (Cert.KernelIdeal.Chain.x0 m c) (Cert.KernelIdeal.Chain.x1 m c) (Cert.KernelIdeal.Chain.x2 m c) (Cert.KernelIdeal.Chain.x3 m c) (Cert.KernelIdeal.Chain.x4 m c) (Cert.KernelIdeal.Chain.x5 m c) (Cert.KernelIdeal.Chain.x6 m c) (Cert.KernelIdeal.Chain.x7 m c), ?_, ?_⟩
  · exact (θ_run Cert.KernelIdeal.defs _ _).mono
      (fun r h c => ⟨(h c).1.trans (Cert.KernelIdeal.Chain.W9_logits m ρ c), (h c).2.1.trans (Cert.KernelIdeal.Chain.W9_probs m ρ c), (h c).2.2⟩)
      (Cert.KernelIdeal.Bridge.run_named m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7⟩ := hagree c
      rw [Cert.ReferenceIdeal.Read.val_main_v107_eq, h0, h1, h2, h3, h4, h5, h6, h7]
    · obtain ⟨h0, h1, h2, h3, h4, h5, h6, h7⟩ := hagree c
      rw [Cert.ReferenceIdeal.Read.val_main_v118_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
